-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x64x384 : Shape := ⟨3, ![2048, 64, 384]⟩
abbrev S384x64 : Shape := ⟨2, ![384, 64]⟩
abbrev S64 : Shape := ⟨1, ![64]⟩
abbrev S8x64x96 : Shape := ⟨3, ![8, 64, 96]⟩
abbrev S8x96 : Shape := ⟨2, ![8, 96]⟩
abbrev S8x96x1 : Shape := ⟨3, ![8, 96, 1]⟩
abbrev S8x1 : Shape := ⟨2, ![8, 1]⟩
abbrev S_ : Shape := ⟨0, ![]⟩

class Facts : Prop where
  bcast_S_S2048x64x384 : S_.BroadcastsInDim S2048x64x384 (![] : Fin 0 → Fin S2048x64x384.rank)
  reducesTo_S2048x64x384_S_d0_1_2 : S2048x64x384.ReducesTo [0, 1, 2] S_
  h_S_ : 0 < S_.numel
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S8x64x96 : S_.BroadcastsInDim S8x64x96 (![] : Fin 0 → Fin S8x64x96.rank)
  reducesTo_S8x64x96_S_d0_1_2 : S8x64x96.ReducesTo [0, 1, 2] S_
  bcast_S_S8x96 : S_.BroadcastsInDim S8x96 (![] : Fin 0 → Fin S8x96.rank)
  reducesTo_S8x96_S_d0_1 : S8x96.ReducesTo [0, 1] S_
  bcast_S_S8x96x1 : S_.BroadcastsInDim S8x96x1 (![] : Fin 0 → Fin S8x96x1.rank)
  reducesTo_S8x96x1_S_d0_1_2 : S8x96x1.ReducesTo [0, 1, 2] S_
  bcast_S_S8x1 : S_.BroadcastsInDim S8x1 (![] : Fin 0 → Fin S8x1.rank)
  reducesTo_S8x1_S_d0_1 : S8x1.ReducesTo [0, 1] S_

variable [Facts]

def fn_part1 {F : FTy → Type} [FloatOps F] (main_arg5 : FVec F S8x96 .f32) (main_arg6 : FVec F S8x96x1 .f32) (main_arg7 : FVec F S8x1 .f32) (main_v13 : IVec S_ 1) (main_v16 : IVec S8x64x96 1) : IVec S_ 1 :=
  let main_c_5 : IVec S_ 1 := constantI S_ 1 1#1
  let main_v17 : IVec S_ 1 := (fun x v => Host.reduce IntOp.andi x v reducesTo_S8x64x96_S_d0_1_2 h_S_) main_v16 main_c_5
  let main_v18 : IVec S_ 1 := andi main_v13 main_v17
  let main_v19 : FVec F S8x96 .f32 := Host.absf main_arg5
  let main_cst_6 : FVec F S_ .f32 := constant S_ .f32 0x7F800000#32
  let main_v20 : FVec F S8x96 .f32 := broadcastInDim S8x96 ![] bcast_S_S8x96 main_cst_6
  let main_v21 : IVec S8x96 1 := cmpf .olt main_v19 main_v20
  let main_c_7 : IVec S_ 1 := constantI S_ 1 1#1
  let main_v22 : IVec S_ 1 := (fun x v => Host.reduce IntOp.andi x v reducesTo_S8x96_S_d0_1 h_S_) main_v21 main_c_7
  let main_v23 : IVec S_ 1 := andi main_v18 main_v22
  let main_v24 : FVec F S8x96x1 .f32 := Host.absf main_arg6
  let main_cst_8 : FVec F S_ .f32 := constant S_ .f32 0x7F800000#32
  let main_v25 : FVec F S8x96x1 .f32 := broadcastInDim S8x96x1 ![] bcast_S_S8x96x1 main_cst_8
  let main_v26 : IVec S8x96x1 1 := cmpf .olt main_v24 main_v25
  let main_c_9 : IVec S_ 1 := constantI S_ 1 1#1
  let main_v27 : IVec S_ 1 := (fun x v => Host.reduce IntOp.andi x v reducesTo_S8x96x1_S_d0_1_2 h_S_) main_v26 main_c_9
  let main_v28 : IVec S_ 1 := andi main_v23 main_v27
  let main_v29 : FVec F S8x1 .f32 := Host.absf main_arg7
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  main_v33

def fn {F : FTy → Type} [FloatOps F] (main_arg0 : IVec S2048x64 32) (main_arg1 : FVec F S2048x64x384 .f32) (main_arg2 : FVec F S384x64 .f32) (main_arg3 : FVec F S64 .f32) (main_arg4 : FVec F S8x64x96 .f32) (main_arg5 : FVec F S8x96 .f32) (main_arg6 : FVec F S8x96x1 .f32) (main_arg7 : FVec F S8x1 .f32) : IVec S_ 1 :=
  let main_v0 : FVec F S2048x64x384 .f32 := Host.absf main_arg1
  let main_cst : FVec F S_ .f32 := constant S_ .f32 0x7F800000#32
  let main_v1 : FVec F S2048x64x384 .f32 := broadcastInDim S2048x64x384 ![] bcast_S_S2048x64x384 main_cst
  let main_v2 : IVec S2048x64x384 1 := cmpf .olt main_v0 main_v1
  let main_c : IVec S_ 1 := constantI S_ 1 1#1
  let main_v3 : IVec S_ 1 := (fun x v => Host.reduce IntOp.andi x v reducesTo_S2048x64x384_S_d0_1_2 h_S_) main_v2 main_c
  let main_v4 : FVec F S384x64 .f32 := Host.absf main_arg2
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64x96 .f32 := Host.absf main_arg4
  let main_cst_4 : FVec F S_ .f32 := constant S_ .f32 0x7F800000#32
  let main_v15 : FVec F S8x64x96 .f32 := broadcastInDim S8x64x96 ![] bcast_S_S8x64x96 main_cst_4
  let main_v16 : IVec S8x64x96 1 := cmpf .olt main_v14 main_v15
  fn_part1 (F := F) main_arg5 main_arg6 main_arg7 main_v13 main_v16
-- ==== Kernel.lean ====
abbrev S2048x64 : Shape := ⟨2, ![2048, 64]⟩
abbrev S2048x64x384 : Shape := ⟨3, ![2048, 64, 384]⟩
abbrev S384x64 : Shape := ⟨2, ![384, 64]⟩
abbrev S64 : Shape := ⟨1, ![64]⟩
abbrev S8x64x96 : Shape := ⟨3, ![8, 64, 96]⟩
abbrev S8x96 : Shape := ⟨2, ![8, 96]⟩
abbrev S8x96x1 : Shape := ⟨3, ![8, 96, 1]⟩
abbrev S8x1 : Shape := ⟨2, ![8, 1]⟩
abbrev S131072x384 : Shape := ⟨2, ![131072, 384]⟩
abbrev S131072x1 : Shape := ⟨2, ![131072, 1]⟩
abbrev S8 : Shape := ⟨1, ![8]⟩
abbrev S1x8 : Shape := ⟨2, ![1, 8]⟩
abbrev S131072x8 : Shape := ⟨2, ![131072, 8]⟩
abbrev S64x8x96 : Shape := ⟨3, ![64, 8, 96]⟩
abbrev S64x768 : Shape := ⟨2, ![64, 768]⟩
abbrev S1x768 : Shape := ⟨2, ![1, 768]⟩
abbrev S8x8 : Shape := ⟨2, ![8, 8]⟩
abbrev S_ : Shape := ⟨0, ![]⟩
abbrev S8x1x8 : Shape := ⟨3, ![8, 1, 8]⟩
abbrev S8x96x8 : Shape := ⟨3, ![8, 96, 8]⟩
abbrev S768x8 : Shape := ⟨2, ![768, 8]⟩
abbrev S1x64 : Shape := ⟨2, ![1, 64]⟩
abbrev S16x1x128 : Shape := ⟨3, ![16, 1, 128]⟩
abbrev S8192x8 : Shape := ⟨2, ![8192, 8]⟩
abbrev S8192x384 : Shape := ⟨2, ![8192, 384]⟩
abbrev S1x1x128 : Shape := ⟨3, ![1, 1, 128]⟩
abbrev S8192x64 : Shape := ⟨2, ![8192, 64]⟩
abbrev S8192x768 : Shape := ⟨2, ![8192, 768]⟩
abbrev S8192 : Shape := ⟨1, ![8192]⟩
abbrev S8192x1 : Shape := ⟨2, ![8192, 1]⟩
abbrev S8192x128 : Shape := ⟨2, ![8192, 128]⟩
abbrev S128 : Shape := ⟨1, ![128]⟩
abbrev S1x128 : Shape := ⟨2, ![1, 128]⟩
abbrev S2048 : Shape := ⟨1, ![2048]⟩

abbrev nBuf : Space → Nat
  | .hbm => 38
  | .vmem => 12
  | .smem => 0
  | _ => 0

abbrev bufTy : (tb : Table) → Fin (tcTables nBuf tb) → BufTy
  | .hbm, ⟨0, _⟩ => ⟨S2048x64, .i32⟩
  | .hbm, ⟨1, _⟩ => ⟨S2048x64x384, .f32⟩
  | .hbm, ⟨2, _⟩ => ⟨S384x64, .f32⟩
  | .hbm, ⟨3, _⟩ => ⟨S64, .f32⟩
  | .hbm, ⟨4, _⟩ => ⟨S8x64x96, .f32⟩
  | .hbm, ⟨5, _⟩ => ⟨S8x96, .f32⟩
  | .hbm, ⟨6, _⟩ => ⟨S8x96x1, .f32⟩
  | .hbm, ⟨7, _⟩ => ⟨S8x1, .f32⟩
  | .hbm, ⟨8, _⟩ => ⟨S131072x384, .f32⟩
  | .hbm, ⟨9, _⟩ => ⟨S131072x1, .i32⟩
  | .hbm, ⟨10, _⟩ => ⟨S8, .i32⟩
  | .hbm, ⟨11, _⟩ => ⟨S1x8, .i32⟩
  | .hbm, ⟨12, _⟩ => ⟨S131072x8, .i32⟩
  | .hbm, ⟨13, _⟩ => ⟨S131072x8, .i32⟩
  | .hbm, ⟨14, _⟩ => ⟨S131072x8, .i1⟩
  | .hbm, ⟨15, _⟩ => ⟨S131072x8, .f32⟩
  | .hbm, ⟨16, _⟩ => ⟨S64x8x96, .f32⟩
  | .hbm, ⟨17, _⟩ => ⟨S64x768, .f32⟩
  | .hbm, ⟨18, _⟩ => ⟨S1x768, .f32⟩
  | .hbm, ⟨19, _⟩ => ⟨S8x96, .f32⟩
  | .hbm, ⟨20, _⟩ => ⟨S8x96x1, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x1x8, .f32⟩
  | .hbm, ⟨29, _⟩ => ⟨S8x96x8, .f32⟩
  | .hbm, ⟨30, _⟩ => ⟨S8x96x8, .f32⟩
  | .hbm, ⟨31, _⟩ => ⟨S8x96x8, .f32⟩
  | .hbm, ⟨32, _⟩ => ⟨S768x8, .f32⟩
  | .hbm, ⟨33, _⟩ => ⟨S768x8, .bf16⟩
  | .hbm, ⟨34, _⟩ => ⟨S1x8, .f32⟩
  | .hbm, ⟨35, _⟩ => ⟨S1x64, .f32⟩
  | .hbm, ⟨36, _⟩ => ⟨S16x1x128, .f32⟩
  | .hbm, ⟨37, _⟩ => ⟨S2048, .f32⟩
  | .local _ .vmem, ⟨0, _⟩ => ⟨S8192x8, .f32⟩
  | .local _ .vmem, ⟨1, _⟩ => ⟨S8192x8, .f32⟩
  | .local _ .vmem, ⟨2, _⟩ => ⟨S8192x384, .f32⟩
  | .local _ .vmem, ⟨3, _⟩ => ⟨S8192x384, .f32⟩
  | .local _ .vmem, ⟨4, _⟩ => ⟨S384x64, .f32⟩
  | .local _ .vmem, ⟨5, _⟩ => ⟨S1x64, .f32⟩
  | .local _ .vmem, ⟨6, _⟩ => ⟨S64x768, .f32⟩
  | .local _ .vmem, ⟨7, _⟩ => ⟨S1x768, .f32⟩
  | .local _ .vmem, ⟨8, _⟩ => ⟨S768x8, .bf16⟩
  | .local _ .vmem, ⟨9, _⟩ => ⟨S1x8, .f32⟩
  | .local _ .vmem, ⟨10, _⟩ => ⟨S1x1x128, .f32⟩
  | .local _ .vmem, ⟨11, _⟩ => ⟨S1x1x128, .f32⟩
  | _, _ => ⟨S2048x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048x64x384_S131072x384 : S2048x64x384.ShapeCasts S131072x384
  shapeCasts_S2048x64_S131072x1 : S2048x64.ShapeCasts S131072x1
  bcast_S8_S1x8_1 : S8.BroadcastsInDim S1x8 (![1] : Fin 1 → Fin S1x8.rank)
  bcast_S131072x1_S131072x8_0_1 : S131072x1.BroadcastsInDim S131072x8 (![0, 1] : Fin 2 → Fin S131072x8.rank)
  bcast_S1x8_S131072x8_0_1 : S1x8.BroadcastsInDim S131072x8 (![0, 1] : Fin 2 → Fin S131072x8.rank)
  transposes_S8x64x96_S64x8x96_1_0_2 : S8x64x96.Transposes [1, 0, 2] S64x8x96
  shapeCasts_S64x8x96_S64x768 : S64x8x96.ShapeCasts S64x768
  shapeCasts_S8x96_S1x768 : S8x96.ShapeCasts S1x768
  shapeCasts_S8x96x1_S8x96 : S8x96x1.ShapeCasts S8x96
  bcast_S8x96_S8x96x1_0_1 : S8x96.BroadcastsInDim S8x96x1 (![0, 1] : Fin 2 → Fin S8x96x1.rank)
  bcast_S_S8x8 : S_.BroadcastsInDim S8x8 (![] : Fin 0 → Fin S8x8.rank)
  bcast_S8x8_S8x1x8_0_2 : S8x8.BroadcastsInDim S8x1x8 (![0, 2] : Fin 2 → Fin S8x1x8.rank)
  bcast_S8x96x1_S8x96x8_0_1_2 : S8x96x1.BroadcastsInDim S8x96x8 (![0, 1, 2] : Fin 3 → Fin S8x96x8.rank)
  bcast_S8x1x8_S8x96x8_0_1_2 : S8x1x8.BroadcastsInDim S8x96x8 (![0, 1, 2] : Fin 3 → Fin S8x96x8.rank)
  shapeCasts_S8x96x8_S768x8 : S8x96x8.ShapeCasts S768x8
  bitsLt_bf16_f32 : FTy.bits .bf16 < FTy.bits .f32
  shapeCasts_S8x1_S1x8 : S8x1.ShapeCasts S1x8
  shapeCasts_S64_S1x64 : S64.ShapeCasts S1x64
  inb_S8192x384_S8192x384_0_0 : ∀ a, (![0, 0] : Fin 2 → Nat) a + S8192x384.size a ≤ S8192x384.size a
  h_S8192x384 : 0 < S8192x384.numel
  shapeCasts_S8192x384_S8192x384 : S8192x384.ShapeCasts S8192x384
  inb_S384x64_S384x64_0_0 : ∀ a, (![0, 0] : Fin 2 → Nat) a + S384x64.size a ≤ S384x64.size a
  h_S384x64 : 0 < S384x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S8192x768 : S1x768.Broadcasts S8192x768
  inb_S768x8_S768x8_0_0 : ∀ a, (![0, 0] : Fin 2 → Nat) a + S768x8.size a ≤ S768x8.size a
  h_S768x8 : 0 < S768x8.numel
  shapeCasts_S768x8_S768x8 : S768x8.ShapeCasts S768x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  reduces_S8192x8_S8192 : S8192x8.Reduces [1] S8192
  shapeCasts_S8192_S8192x1 : S8192.ShapeCasts S8192x1
  iota_S8192x128_d0_w32 : S8192x128.Iotas .tc 32 [0]
  iota_S8192x128_d1_w32 : S8192x128.Iotas .tc 32 [1]
  natLt_1_32 : 1 < 32
  shapeCasts_S8192x1_S8192x1 : S8192x1.ShapeCasts S8192x1
  broadcasts_S8192x1_S8192x128 : S8192x1.Broadcasts S8192x128
  reduces_S8192x128_S128 : S8192x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S16x1x128_S2048 : S16x1x128.ShapeCasts S2048
  dot_S8192x384_S384x64_S8192x64_1_0_0_1_n_n_wf : DotDims.WF S8192x384 S384x64 S8192x64 [1] [0] [0] [1] [] []
  dot_S8192x64_S64x768_S8192x768_1_0_0_1_n_n_wf : DotDims.WF S8192x64 S64x768 S8192x768 [1] [0] [0] [1] [] []
  dot_S8192x768_S768x8_S8192x8_1_0_0_1_n_n_wf : DotDims.WF S8192x768 S768x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S131072x8.size a
  hwx0_0 : ∀ i : grid0.Coords, EltTy.bits .f32 = 32 ∨ (Rect.block (s := S131072x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x384.size a ≤ S131072x384.size a
  hwx0_1 : ∀ i : grid0.Coords, EltTy.bits .f32 = 32 ∨ (Rect.block (s := S131072x384) S8192x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x64.size a ≤ S384x64.size a
  hwx0_2 : ∀ i : grid0.Coords, EltTy.bits .f32 = 32 ∨ (Rect.block (s := S384x64) S384x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x768.size a ≤ S64x768.size a
  hwx0_4 : ∀ i : grid0.Coords, EltTy.bits .f32 = 32 ∨ (Rect.block (s := S64x768) S64x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x8.size a ≤ S768x8.size a
  hwx0_6 : ∀ i : grid0.Coords, EltTy.bits .bf16 = 32 ∨ (Rect.block (s := S768x8) S768x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S16x1x128.size a
  hwx0_8 : ∀ i : grid0.Coords, EltTy.bits .f32 = 32 ∨ (Rect.block (s := S16x1x128) S1x1x128.size (cc0_transform_8 i) (hinb0_8 i)).WholeWords (EltTy.packing .f32)

variable [Facts₀]

def dot_S8192x384_S384x64_S8192x64_1_0_0_1_n_n : DotDims S8192x384 S384x64 S8192x64 where
  lhsContracting := [1]
  rhsContracting := [0]
  lhsNonContracting := [0]
  rhsNonContracting := [1]
  lhsBatch := []
  rhsBatch := []
  wf := dot_S8192x384_S384x64_S8192x64_1_0_0_1_n_n_wf
def dot_S8192x64_S64x768_S8192x768_1_0_0_1_n_n : DotDims S8192x64 S64x768 S8192x768 where
  lhsContracting := [1]
  rhsContracting := [0]
  lhsNonContracting := [0]
  rhsNonContracting := [1]
  lhsBatch := []
  rhsBatch := []
  wf := dot_S8192x64_S64x768_S8192x768_1_0_0_1_n_n_wf
def dot_S8192x768_S768x8_S8192x8_1_0_0_1_n_n : DotDims S8192x768 S768x8 S8192x8 where
  lhsContracting := [1]
  rhsContracting := [0]
  lhsNonContracting := [0]
  rhsNonContracting := [1]
  lhsBatch := []
  rhsBatch := []
  wf := dot_S8192x768_S768x8_S8192x8_1_0_0_1_n_n_wf

abbrev win0_0 : Pipeline.Window sig grid0 :=
  Pipeline.Window.ofSpec (Memref.whole main_v7) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S768x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x64x384 : Shape := ⟨3, ![2048, 64, 384]⟩
abbrev S384x64 : Shape := ⟨2, ![384, 64]⟩
abbrev S64 : Shape := ⟨1, ![64]⟩
abbrev S8x64x96 : Shape := ⟨3, ![8, 64, 96]⟩
abbrev S8x96 : Shape := ⟨2, ![8, 96]⟩
abbrev S8x96x1 : Shape := ⟨3, ![8, 96, 1]⟩
abbrev S8x1 : Shape := ⟨2, ![8, 1]⟩
abbrev S131072 : Shape := ⟨1, ![131072]⟩
abbrev S131072x384 : Shape := ⟨2, ![131072, 384]⟩
abbrev S131072x64 : Shape := ⟨2, ![131072, 64]⟩
abbrev S1x64 : Shape := ⟨2, ![1, 64]⟩
abbrev S_ : Shape := ⟨0, ![]⟩
abbrev S1x64x96 : Shape := ⟨3, ![1, 64, 96]⟩
abbrev S64x96 : Shape := ⟨2, ![64, 96]⟩
abbrev S131072x96 : Shape := ⟨2, ![131072, 96]⟩
abbrev S1x96 : Shape := ⟨2, ![1, 96]⟩
abbrev S96 : Shape := ⟨1, ![96]⟩
abbrev S1x96x1 : Shape := ⟨3, ![1, 96, 1]⟩
abbrev S96x1 : Shape := ⟨2, ![96, 1]⟩
abbrev S131072x1 : Shape := ⟨2, ![131072, 1]⟩
abbrev S1x1 : Shape := ⟨2, ![1, 1]⟩
abbrev S1 : Shape := ⟨1, ![1]⟩
abbrev S2048 : Shape := ⟨1, ![2048]⟩

abbrev nBuf : Space → Nat
  | .hbm => 313
  | .vmem => 0
  | .smem => 0
  | _ => 0

abbrev hbmTy0_0 (i : Nat) : BufTy := match i % 128 with
  | 0 => ⟨S2048x64, .i32⟩
  | 1 => ⟨S2048x64x384, .f32⟩
  | 2 => ⟨S384x64, .f32⟩
  | 3 => ⟨S64, .f32⟩
  | 4 => ⟨S8x64x96, .f32⟩
  | 5 => ⟨S8x96, .f32⟩
  | 6 => ⟨S8x96x1, .f32⟩
  | 7 => ⟨S8x1, .f32⟩
  | 8 => ⟨S131072, .i32⟩
  | 9 => ⟨S131072x384, .f32⟩
  | 10 => ⟨S131072x64, .f32⟩
  | 11 => ⟨S1x64, .f32⟩
  | 12 => ⟨S131072x64, .f32⟩
  | 13 => ⟨S131072x64, .f32⟩
  | 14 => ⟨S_, .f32⟩
  | 15 => ⟨S131072x64, .f32⟩
  | 16 => ⟨S131072x64, .f32⟩
  | 17 => ⟨S_, .f32⟩
  | 18 => ⟨S131072x64, .f32⟩
  | 19 => ⟨S131072x64, .f32⟩
  | 20 => ⟨S_, .f32⟩
  | 21 => ⟨S131072x64, .f32⟩
  | 22 => ⟨S131072x64, .f32⟩
  | 23 => ⟨S131072x64, .f32⟩
  | 24 => ⟨S_, .f32⟩
  | 25 => ⟨S131072x64, .f32⟩
  | 26 => ⟨S131072x64, .f32⟩
  | 27 => ⟨S131072x64, .f32⟩
  | 28 => ⟨S_, .f32⟩
  | 29 => ⟨S131072, .f32⟩
  | 30 => ⟨S1x64x96, .f32⟩
  | 31 => ⟨S64x96, .f32⟩
  | 32 => ⟨S131072x96, .f32⟩
  | 33 => ⟨S1x96, .f32⟩
  | 34 => ⟨S96, .f32⟩
  | 35 => ⟨S1x96, .f32⟩
  | 36 => ⟨S131072x96, .f32⟩
  | 37 => ⟨S131072x96, .f32⟩
  | 38 => ⟨S_, .f32⟩
  | 39 => ⟨S131072x96, .f32⟩
  | 40 => ⟨S131072x96, .f32⟩
  | 41 => ⟨S_, .f32⟩
  | 42 => ⟨S131072x96, .f32⟩
  | 43 => ⟨S131072x96, .f32⟩
  | 44 => ⟨S_, .f32⟩
  | 45 => ⟨S131072x96, .f32⟩
  | 46 => ⟨S131072x96, .f32⟩
  | 47 => ⟨S131072x96, .f32⟩
  | 48 => ⟨S_, .f32⟩
  | 49 => ⟨S131072x96, .f32⟩
  | 50 => ⟨S131072x96, .f32⟩
  | 51 => ⟨S131072x96, .f32⟩
  | 52 => ⟨S1x96x1, .f32⟩
  | 53 => ⟨S96x1, .f32⟩
  | 54 => ⟨S131072x1, .f32⟩
  | 55 => ⟨S1x1, .f32⟩
  | 56 => ⟨S1, .f32⟩
  | 57 => ⟨S1x1, .f32⟩
  | 58 => ⟨S131072x1, .f32⟩
  | 59 => ⟨S131072x1, .f32⟩
  | 60 => ⟨S131072, .f32⟩
  | 61 => ⟨S_, .i32⟩
  | 62 => ⟨S131072, .i32⟩
  | 63 => ⟨S131072, .i1⟩
  | 64 => ⟨S131072, .f32⟩
  | 65 => ⟨S1x64x96, .f32⟩
  | 66 => ⟨S64x96, .f32⟩
  | 67 => ⟨S131072x96, .f32⟩
  | 68 => ⟨S1x96, .f32⟩
  | 69 => ⟨S96, .f32⟩
  | 70 => ⟨S1x96, .f32⟩
  | 71 => ⟨S131072x96, .f32⟩
  | 72 => ⟨S131072x96, .f32⟩
  | 73 => ⟨S_, .f32⟩
  | 74 => ⟨S131072x96, .f32⟩
  | 75 => ⟨S131072x96, .f32⟩
  | 76 => ⟨S_, .f32⟩
  | 77 => ⟨S131072x96, .f32⟩
  | 78 => ⟨S131072x96, .f32⟩
  | 79 => ⟨S_, .f32⟩
  | 80 => ⟨S131072x96, .f32⟩
  | 81 => ⟨S131072x96, .f32⟩
  | 82 => ⟨S131072x96, .f32⟩
  | 83 => ⟨S_, .f32⟩
  | 84 => ⟨S131072x96, .f32⟩
  | 85 => ⟨S131072x96, .f32⟩
  | 86 => ⟨S131072x96, .f32⟩
  | 87 => ⟨S1x96x1, .f32⟩
  | 88 => ⟨S96x1, .f32⟩
  | 89 => ⟨S131072x1, .f32⟩
  | 90 => ⟨S1x1, .f32⟩
  | 91 => ⟨S1, .f32⟩
  | 92 => ⟨S1x1, .f32⟩
  | 93 => ⟨S131072x1, .f32⟩
  | 94 => ⟨S131072x1, .f32⟩
  | 95 => ⟨S131072, .f32⟩
  | 96 => ⟨S_, .i32⟩
  | 97 => ⟨S131072, .i32⟩
  | 98 => ⟨S131072, .i1⟩
  | 99 => ⟨S131072, .f32⟩
  | 100 => ⟨S1x64x96, .f32⟩
  | 101 => ⟨S64x96, .f32⟩
  | 102 => ⟨S131072x96, .f32⟩
  | 103 => ⟨S1x96, .f32⟩
  | 104 => ⟨S96, .f32⟩
  | 105 => ⟨S1x96, .f32⟩
  | 106 => ⟨S131072x96, .f32⟩
  | 107 => ⟨S131072x96, .f32⟩
  | 108 => ⟨S_, .f32⟩
  | 109 => ⟨S131072x96, .f32⟩
  | 110 => ⟨S131072x96, .f32⟩
  | 111 => ⟨S_, .f32⟩
  | 112 => ⟨S131072x96, .f32⟩
  | 113 => ⟨S131072x96, .f32⟩
  | 114 => ⟨S_, .f32⟩
  | 115 => ⟨S131072x96, .f32⟩
  | 116 => ⟨S131072x96, .f32⟩
  | 117 => ⟨S131072x96, .f32⟩
  | 118 => ⟨S_, .f32⟩
  | 119 => ⟨S131072x96, .f32⟩
  | 120 => ⟨S131072x96, .f32⟩
  | 121 => ⟨S131072x96, .f32⟩
  | 122 => ⟨S1x96x1, .f32⟩
  | 123 => ⟨S96x1, .f32⟩
  | 124 => ⟨S131072x1, .f32⟩
  | 125 => ⟨S1x1, .f32⟩
  | 126 => ⟨S1, .f32⟩
  | 127 => ⟨S1x1, .f32⟩
  | _ => ⟨S2048x64, .i32⟩

abbrev hbmTy0_1 (i : Nat) : BufTy := match i % 128 with
  | 0 => ⟨S131072x1, .f32⟩
  | 1 => ⟨S131072x1, .f32⟩
  | 2 => ⟨S131072, .f32⟩
  | 3 => ⟨S_, .i32⟩
  | 4 => ⟨S131072, .i32⟩
  | 5 => ⟨S131072, .i1⟩
  | 6 => ⟨S131072, .f32⟩
  | 7 => ⟨S1x64x96, .f32⟩
  | 8 => ⟨S64x96, .f32⟩
  | 9 => ⟨S131072x96, .f32⟩
  | 10 => ⟨S1x96, .f32⟩
  | 11 => ⟨S96, .f32⟩
  | 12 => ⟨S1x96, .f32⟩
  | 13 => ⟨S131072x96, .f32⟩
  | 14 => ⟨S131072x96, .f32⟩
  | 15 => ⟨S_, .f32⟩
  | 16 => ⟨S131072x96, .f32⟩
  | 17 => ⟨S131072x96, .f32⟩
  | 18 => ⟨S_, .f32⟩
  | 19 => ⟨S131072x96, .f32⟩
  | 20 => ⟨S131072x96, .f32⟩
  | 21 => ⟨S_, .f32⟩
  | 22 => ⟨S131072x96, .f32⟩
  | 23 => ⟨S131072x96, .f32⟩
  | 24 => ⟨S131072x96, .f32⟩
  | 25 => ⟨S_, .f32⟩
  | 26 => ⟨S131072x96, .f32⟩
  | 27 => ⟨S131072x96, .f32⟩
  | 28 => ⟨S131072x96, .f32⟩
  | 29 => ⟨S1x96x1, .f32⟩
  | 30 => ⟨S96x1, .f32⟩
  | 31 => ⟨S131072x1, .f32⟩
  | 32 => ⟨S1x1, .f32⟩
  | 33 => ⟨S1, .f32⟩
  | 34 => ⟨S1x1, .f32⟩
  | 35 => ⟨S131072x1, .f32⟩
  | 36 => ⟨S131072x1, .f32⟩
  | 37 => ⟨S131072, .f32⟩
  | 38 => ⟨S_, .i32⟩
  | 39 => ⟨S131072, .i32⟩
  | 40 => ⟨S131072, .i1⟩
  | 41 => ⟨S131072, .f32⟩
  | 42 => ⟨S1x64x96, .f32⟩
  | 43 => ⟨S64x96, .f32⟩
  | 44 => ⟨S131072x96, .f32⟩
  | 45 => ⟨S1x96, .f32⟩
  | 46 => ⟨S96, .f32⟩
  | 47 => ⟨S1x96, .f32⟩
  | 48 => ⟨S131072x96, .f32⟩
  | 49 => ⟨S131072x96, .f32⟩
  | 50 => ⟨S_, .f32⟩
  | 51 => ⟨S131072x96, .f32⟩
  | 52 => ⟨S131072x96, .f32⟩
  | 53 => ⟨S_, .f32⟩
  | 54 => ⟨S131072x96, .f32⟩
  | 55 => ⟨S131072x96, .f32⟩
  | 56 => ⟨S_, .f32⟩
  | 57 => ⟨S131072x96, .f32⟩
  | 58 => ⟨S131072x96, .f32⟩
  | 59 => ⟨S131072x96, .f32⟩
  | 60 => ⟨S_, .f32⟩
  | 61 => ⟨S131072x96, .f32⟩
  | 62 => ⟨S131072x96, .f32⟩
  | 63 => ⟨S131072x96, .f32⟩
  | 64 => ⟨S1x96x1, .f32⟩
  | 65 => ⟨S96x1, .f32⟩
  | 66 => ⟨S131072x1, .f32⟩
  | 67 => ⟨S1x1, .f32⟩
  | 68 => ⟨S1, .f32⟩
  | 69 => ⟨S1x1, .f32⟩
  | 70 => ⟨S131072x1, .f32⟩
  | 71 => ⟨S131072x1, .f32⟩
  | 72 => ⟨S131072, .f32⟩
  | 73 => ⟨S_, .i32⟩
  | 74 => ⟨S131072, .i32⟩
  | 75 => ⟨S131072, .i1⟩
  | 76 => ⟨S131072, .f32⟩
  | 77 => ⟨S1x64x96, .f32⟩
  | 78 => ⟨S64x96, .f32⟩
  | 79 => ⟨S131072x96, .f32⟩
  | 80 => ⟨S1x96, .f32⟩
  | 81 => ⟨S96, .f32⟩
  | 82 => ⟨S1x96, .f32⟩
  | 83 => ⟨S131072x96, .f32⟩
  | 84 => ⟨S131072x96, .f32⟩
  | 85 => ⟨S_, .f32⟩
  | 86 => ⟨S131072x96, .f32⟩
  | 87 => ⟨S131072x96, .f32⟩
  | 88 => ⟨S_, .f32⟩
  | 89 => ⟨S131072x96, .f32⟩
  | 90 => ⟨S131072x96, .f32⟩
  | 91 => ⟨S_, .f32⟩
  | 92 => ⟨S131072x96, .f32⟩
  | 93 => ⟨S131072x96, .f32⟩
  | 94 => ⟨S131072x96, .f32⟩
  | 95 => ⟨S_, .f32⟩
  | 96 => ⟨S131072x96, .f32⟩
  | 97 => ⟨S131072x96, .f32⟩
  | 98 => ⟨S131072x96, .f32⟩
  | 99 => ⟨S1x96x1, .f32⟩
  | 100 => ⟨S96x1, .f32⟩
  | 101 => ⟨S131072x1, .f32⟩
  | 102 => ⟨S1x1, .f32⟩
  | 103 => ⟨S1, .f32⟩
  | 104 => ⟨S1x1, .f32⟩
  | 105 => ⟨S131072x1, .f32⟩
  | 106 => ⟨S131072x1, .f32⟩
  | 107 => ⟨S131072, .f32⟩
  | 108 => ⟨S_, .i32⟩
  | 109 => ⟨S131072, .i32⟩
  | 110 => ⟨S131072, .i1⟩
  | 111 => ⟨S131072, .f32⟩
  | 112 => ⟨S1x64x96, .f32⟩
  | 113 => ⟨S64x96, .f32⟩
  | 114 => ⟨S131072x96, .f32⟩
  | 115 => ⟨S1x96, .f32⟩
  | 116 => ⟨S96, .f32⟩
  | 117 => ⟨S1x96, .f32⟩
  | 118 => ⟨S131072x96, .f32⟩
  | 119 => ⟨S131072x96, .f32⟩
  | 120 => ⟨S_, .f32⟩
  | 121 => ⟨S131072x96, .f32⟩
  | 122 => ⟨S131072x96, .f32⟩
  | 123 => ⟨S_, .f32⟩
  | 124 => ⟨S131072x96, .f32⟩
  | 125 => ⟨S131072x96, .f32⟩
  | 126 => ⟨S_, .f32⟩
  | 127 => ⟨S131072x96, .f32⟩
  | _ => ⟨S2048x64, .i32⟩

abbrev hbmTy0_2 (i : Nat) : BufTy := match i % 128 with
  | 0 => ⟨S131072x96, .f32⟩
  | 1 => ⟨S131072x96, .f32⟩
  | 2 => ⟨S_, .f32⟩
  | 3 => ⟨S131072x96, .f32⟩
  | 4 => ⟨S131072x96, .f32⟩
  | 5 => ⟨S131072x96, .f32⟩
  | 6 => ⟨S1x96x1, .f32⟩
  | 7 => ⟨S96x1, .f32⟩
  | 8 => ⟨S131072x1, .f32⟩
  | 9 => ⟨S1x1, .f32⟩
  | 10 => ⟨S1, .f32⟩
  | 11 => ⟨S1x1, .f32⟩
  | 12 => ⟨S131072x1, .f32⟩
  | 13 => ⟨S131072x1, .f32⟩
  | 14 => ⟨S131072, .f32⟩
  | 15 => ⟨S_, .i32⟩
  | 16 => ⟨S131072, .i32⟩
  | 17 => ⟨S131072, .i1⟩
  | 18 => ⟨S131072, .f32⟩
  | 19 => ⟨S1x64x96, .f32⟩
  | 20 => ⟨S64x96, .f32⟩
  | 21 => ⟨S131072x96, .f32⟩
  | 22 => ⟨S1x96, .f32⟩
  | 23 => ⟨S96, .f32⟩
  | 24 => ⟨S1x96, .f32⟩
  | 25 => ⟨S131072x96, .f32⟩
  | 26 => ⟨S131072x96, .f32⟩
  | 27 => ⟨S_, .f32⟩
  | 28 => ⟨S131072x96, .f32⟩
  | 29 => ⟨S131072x96, .f32⟩
  | 30 => ⟨S_, .f32⟩
  | 31 => ⟨S131072x96, .f32⟩
  | 32 => ⟨S131072x96, .f32⟩
  | 33 => ⟨S_, .f32⟩
  | 34 => ⟨S131072x96, .f32⟩
  | 35 => ⟨S131072x96, .f32⟩
  | 36 => ⟨S131072x96, .f32⟩
  | 37 => ⟨S_, .f32⟩
  | 38 => ⟨S131072x96, .f32⟩
  | 39 => ⟨S131072x96, .f32⟩
  | 40 => ⟨S131072x96, .f32⟩
  | 41 => ⟨S1x96x1, .f32⟩
  | 42 => ⟨S96x1, .f32⟩
  | 43 => ⟨S131072x1, .f32⟩
  | 44 => ⟨S1x1, .f32⟩
  | 45 => ⟨S1, .f32⟩
  | 46 => ⟨S1x1, .f32⟩
  | 47 => ⟨S131072x1, .f32⟩
  | 48 => ⟨S131072x1, .f32⟩
  | 49 => ⟨S131072, .f32⟩
  | 50 => ⟨S_, .i32⟩
  | 51 => ⟨S131072, .i32⟩
  | 52 => ⟨S131072, .i1⟩
  | 53 => ⟨S131072, .f32⟩
  | 54 => ⟨S2048x64, .f32⟩
  | 55 => ⟨S_, .f32⟩
  | 56 => ⟨S2048, .f32⟩
  | _ => ⟨S2048x64, .i32⟩

abbrev hbmTy (i : Nat) : BufTy := match i / 128 with
  | 0 => hbmTy0_0 i
  | 1 => hbmTy0_1 i
  | 2 => hbmTy0_2 i
  | _ => ⟨S2048x64, .i32⟩

abbrev bufTy : (tb : Table) → Fin (tcTables nBuf tb) → BufTy
  | .hbm, ⟨i, _⟩ => hbmTy i
  | _, _ => ⟨S2048x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_cst_1 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_2 : Ref sig .tc := ⟨.hbm, 24, rfl⟩
abbrev main_call0_v7 : Ref sig .tc := ⟨.hbm, 25, rfl⟩
abbrev main_call0_v8 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_cst_1 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_2 : Ref sig .tc := ⟨.hbm, 48, rfl⟩
abbrev main_call1_v7 : Ref sig .tc := ⟨.hbm, 49, rfl⟩
abbrev main_call1_v8 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call3_cst : Ref sig .tc := ⟨.hbm, 73, rfl⟩
abbrev main_call3_v0 : Ref sig .tc := ⟨.hbm, 74, rfl⟩
abbrev main_call3_v1 : Ref sig .tc := ⟨.hbm, 75, rfl⟩
abbrev main_call3_cst_0 : Ref sig .tc := ⟨.hbm, 76, rfl⟩
abbrev main_call3_v2 : Ref sig .tc := ⟨.hbm, 77, rfl⟩
abbrev main_call3_v3 : Ref sig .tc := ⟨.hbm, 78, rfl⟩
abbrev main_call3_cst_1 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_cst_2 : Ref sig .tc := ⟨.hbm, 83, rfl⟩
abbrev main_call3_v7 : Ref sig .tc := ⟨.hbm, 84, rfl⟩
abbrev main_call3_v8 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_c_0 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_call5_cst : Ref sig .tc := ⟨.hbm, 108, rfl⟩
abbrev main_call5_v0 : Ref sig .tc := ⟨.hbm, 109, rfl⟩
abbrev main_call5_v1 : Ref sig .tc := ⟨.hbm, 110, rfl⟩
abbrev main_call5_cst_0 : Ref sig .tc := ⟨.hbm, 111, rfl⟩
abbrev main_call5_v2 : Ref sig .tc := ⟨.hbm, 112, rfl⟩
abbrev main_call5_v3 : Ref sig .tc := ⟨.hbm, 113, rfl⟩
abbrev main_call5_cst_1 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_call5_cst_2 : Ref sig .tc := ⟨.hbm, 118, rfl⟩
abbrev main_call5_v7 : Ref sig .tc := ⟨.hbm, 119, rfl⟩
abbrev main_call5_v8 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_c_1 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_call7_cst : Ref sig .tc := ⟨.hbm, 143, rfl⟩
abbrev main_call7_v0 : Ref sig .tc := ⟨.hbm, 144, rfl⟩
abbrev main_call7_v1 : Ref sig .tc := ⟨.hbm, 145, rfl⟩
abbrev main_call7_cst_0 : Ref sig .tc := ⟨.hbm, 146, rfl⟩
abbrev main_call7_v2 : Ref sig .tc := ⟨.hbm, 147, rfl⟩
abbrev main_call7_v3 : Ref sig .tc := ⟨.hbm, 148, rfl⟩
abbrev main_call7_cst_1 : Ref sig .tc := ⟨.hbm, 149, rfl⟩
abbrev main_call7_v4 : Ref sig .tc := ⟨.hbm, 150, rfl⟩
abbrev main_call7_v5 : Ref sig .tc := ⟨.hbm, 151, rfl⟩
abbrev main_call7_v6 : Ref sig .tc := ⟨.hbm, 152, rfl⟩
abbrev main_call7_cst_2 : Ref sig .tc := ⟨.hbm, 153, rfl⟩
abbrev main_call7_v7 : Ref sig .tc := ⟨.hbm, 154, rfl⟩
abbrev main_call7_v8 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_c_2 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_call9_cst : Ref sig .tc := ⟨.hbm, 178, rfl⟩
abbrev main_call9_v0 : Ref sig .tc := ⟨.hbm, 179, rfl⟩
abbrev main_call9_v1 : Ref sig .tc := ⟨.hbm, 180, rfl⟩
abbrev main_call9_cst_0 : Ref sig .tc := ⟨.hbm, 181, rfl⟩
abbrev main_call9_v2 : Ref sig .tc := ⟨.hbm, 182, rfl⟩
abbrev main_call9_v3 : Ref sig .tc := ⟨.hbm, 183, rfl⟩
abbrev main_call9_cst_1 : Ref sig .tc := ⟨.hbm, 184, rfl⟩
abbrev main_call9_v4 : Ref sig .tc := ⟨.hbm, 185, rfl⟩
abbrev main_call9_v5 : Ref sig .tc := ⟨.hbm, 186, rfl⟩
abbrev main_call9_v6 : Ref sig .tc := ⟨.hbm, 187, rfl⟩
abbrev main_call9_cst_2 : Ref sig .tc := ⟨.hbm, 188, rfl⟩
abbrev main_call9_v7 : Ref sig .tc := ⟨.hbm, 189, rfl⟩
abbrev main_call9_v8 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_c_3 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_call11_cst : Ref sig .tc := ⟨.hbm, 213, rfl⟩
abbrev main_call11_v0 : Ref sig .tc := ⟨.hbm, 214, rfl⟩
abbrev main_call11_v1 : Ref sig .tc := ⟨.hbm, 215, rfl⟩
abbrev main_call11_cst_0 : Ref sig .tc := ⟨.hbm, 216, rfl⟩
abbrev main_call11_v2 : Ref sig .tc := ⟨.hbm, 217, rfl⟩
abbrev main_call11_v3 : Ref sig .tc := ⟨.hbm, 218, rfl⟩
abbrev main_call11_cst_1 : Ref sig .tc := ⟨.hbm, 219, rfl⟩
abbrev main_call11_v4 : Ref sig .tc := ⟨.hbm, 220, rfl⟩
abbrev main_call11_v5 : Ref sig .tc := ⟨.hbm, 221, rfl⟩
abbrev main_call11_v6 : Ref sig .tc := ⟨.hbm, 222, rfl⟩
abbrev main_call11_cst_2 : Ref sig .tc := ⟨.hbm, 223, rfl⟩
abbrev main_call11_v7 : Ref sig .tc := ⟨.hbm, 224, rfl⟩
abbrev main_call11_v8 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_c_4 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_call13_cst : Ref sig .tc := ⟨.hbm, 248, rfl⟩
abbrev main_call13_v0 : Ref sig .tc := ⟨.hbm, 249, rfl⟩
abbrev main_call13_v1 : Ref sig .tc := ⟨.hbm, 250, rfl⟩
abbrev main_call13_cst_0 : Ref sig .tc := ⟨.hbm, 251, rfl⟩
abbrev main_call13_v2 : Ref sig .tc := ⟨.hbm, 252, rfl⟩
abbrev main_call13_v3 : Ref sig .tc := ⟨.hbm, 253, rfl⟩
abbrev main_call13_cst_1 : Ref sig .tc := ⟨.hbm, 254, rfl⟩
abbrev main_call13_v4 : Ref sig .tc := ⟨.hbm, 255, rfl⟩
abbrev main_call13_v5 : Ref sig .tc := ⟨.hbm, 256, rfl⟩
abbrev main_call13_v6 : Ref sig .tc := ⟨.hbm, 257, rfl⟩
abbrev main_call13_cst_2 : Ref sig .tc := ⟨.hbm, 258, rfl⟩
abbrev main_call13_v7 : Ref sig .tc := ⟨.hbm, 259, rfl⟩
abbrev main_call13_v8 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_c_5 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_call15_cst : Ref sig .tc := ⟨.hbm, 283, rfl⟩
abbrev main_call15_v0 : Ref sig .tc := ⟨.hbm, 284, rfl⟩
abbrev main_call15_v1 : Ref sig .tc := ⟨.hbm, 285, rfl⟩
abbrev main_call15_cst_0 : Ref sig .tc := ⟨.hbm, 286, rfl⟩
abbrev main_call15_v2 : Ref sig .tc := ⟨.hbm, 287, rfl⟩
abbrev main_call15_v3 : Ref sig .tc := ⟨.hbm, 288, rfl⟩
abbrev main_call15_cst_1 : Ref sig .tc := ⟨.hbm, 289, rfl⟩
abbrev main_call15_v4 : Ref sig .tc := ⟨.hbm, 290, rfl⟩
abbrev main_call15_v5 : Ref sig .tc := ⟨.hbm, 291, rfl⟩
abbrev main_call15_v6 : Ref sig .tc := ⟨.hbm, 292, rfl⟩
abbrev main_call15_cst_2 : Ref sig .tc := ⟨.hbm, 293, rfl⟩
abbrev main_call15_v7 : Ref sig .tc := ⟨.hbm, 294, rfl⟩
abbrev main_call15_v8 : Ref sig .tc := ⟨.hbm, 295, rfl⟩
abbrev main_v163 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_v169 : Ref sig .tc := ⟨.hbm, 302, rfl⟩
abbrev main_v170 : Ref sig .tc := ⟨.hbm, 303, rfl⟩
abbrev main_v171 : Ref sig .tc := ⟨.hbm, 304, rfl⟩
abbrev main_v172 : Ref sig .tc := ⟨.hbm, 305, rfl⟩
abbrev main_c_6 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_cst_7 : Ref sig .tc := ⟨.hbm, 311, rfl⟩
abbrev main_v177 : Ref sig .tc := ⟨.hbm, 312, rfl⟩

abbrev nD : Nat := 1
abbrev τ : Topo := Topo.v7x

variable {F : FTy → Type} [FloatOps F]

class Facts₀ : Prop where
  shapeCasts_S2048x64_S131072 : S2048x64.ShapeCasts S131072
  shapeCasts_S2048x64x384_S131072x384 : S2048x64x384.ShapeCasts S131072x384
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S_S131072 : S_.BroadcastsInDim S131072 (![] : Fin 0 → Fin S131072.rank)
  slices_S8x64x96_S1x64x96_0_0_0 : S8x64x96.Slices ![0, 0, 0] S1x64x96
  shapeCasts_S1x64x96_S64x96 : S1x64x96.ShapeCasts S64x96
  slices_S8x96_S1x96_0_0 : S8x96.Slices ![0, 0] S1x96
  shapeCasts_S1x96_S96 : S1x96.ShapeCasts S96
  bcast_S96_S1x96_1 : S96.BroadcastsInDim S1x96 (![1] : Fin 1 → Fin S1x96.rank)
  bcast_S1x96_S131072x96_0_1 : S1x96.BroadcastsInDim S131072x96 (![0, 1] : Fin 2 → Fin S131072x96.rank)
  bcast_S_S131072x96 : S_.BroadcastsInDim S131072x96 (![] : Fin 0 → Fin S131072x96.rank)
  slices_S8x96x1_S1x96x1_0_0_0 : S8x96x1.Slices ![0, 0, 0] S1x96x1
  shapeCasts_S1x96x1_S96x1 : S1x96x1.ShapeCasts S96x1
  slices_S8x1_S1x1_0_0 : S8x1.Slices ![0, 0] S1x1
  shapeCasts_S1x1_S1 : S1x1.ShapeCasts S1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  slices_S8x64x96_S1x64x96_1_0_0 : S8x64x96.Slices ![1, 0, 0] S1x64x96
  slices_S8x96_S1x96_1_0 : S8x96.Slices ![1, 0] S1x96
  slices_S8x96x1_S1x96x1_1_0_0 : S8x96x1.Slices ![1, 0, 0] S1x96x1
  slices_S8x1_S1x1_1_0 : S8x1.Slices ![1, 0] S1x1
  slices_S8x64x96_S1x64x96_2_0_0 : S8x64x96.Slices ![2, 0, 0] S1x64x96
  slices_S8x96_S1x96_2_0 : S8x96.Slices ![2, 0] S1x96
  slices_S8x96x1_S1x96x1_2_0_0 : S8x96x1.Slices ![2, 0, 0] S1x96x1
  slices_S8x1_S1x1_2_0 : S8x1.Slices ![2, 0] S1x1
  slices_S8x64x96_S1x64x96_3_0_0 : S8x64x96.Slices ![3, 0, 0] S1x64x96
  slices_S8x96_S1x96_3_0 : S8x96.Slices ![3, 0] S1x96
  slices_S8x96x1_S1x96x1_3_0_0 : S8x96x1.Slices ![3, 0, 0] S1x96x1
  slices_S8x1_S1x1_3_0 : S8x1.Slices ![3, 0] S1x1
  slices_S8x64x96_S1x64x96_4_0_0 : S8x64x96.Slices ![4, 0, 0] S1x64x96
  slices_S8x96_S1x96_4_0 : S8x96.Slices ![4, 0] S1x96
  slices_S8x96x1_S1x96x1_4_0_0 : S8x96x1.Slices ![4, 0, 0] S1x96x1
  slices_S8x1_S1x1_4_0 : S8x1.Slices ![4, 0] S1x1
  slices_S8x64x96_S1x64x96_5_0_0 : S8x64x96.Slices ![5, 0, 0] S1x64x96
  slices_S8x96_S1x96_5_0 : S8x96.Slices ![5, 0] S1x96
  slices_S8x96x1_S1x96x1_5_0_0 : S8x96x1.Slices ![5, 0, 0] S1x96x1
  slices_S8x1_S1x1_5_0 : S8x1.Slices ![5, 0] S1x1
  slices_S8x64x96_S1x64x96_6_0_0 : S8x64x96.Slices ![6, 0, 0] S1x64x96
  slices_S8x96_S1x96_6_0 : S8x96.Slices ![6, 0] S1x96
  slices_S8x96x1_S1x96x1_6_0_0 : S8x96x1.Slices ![6, 0, 0] S1x96x1
  slices_S8x1_S1x1_6_0 : S8x1.Slices ![6, 0] S1x1
  slices_S8x64x96_S1x64x96_7_0_0 : S8x64x96.Slices ![7, 0, 0] S1x64x96
  slices_S8x96_S1x96_7_0 : S8x96.Slices ![7, 0] S1x96
  slices_S8x96x1_S1x96x1_7_0_0 : S8x96x1.Slices ![7, 0, 0] S1x96x1
  slices_S8x1_S1x1_7_0 : S8x1.Slices ![7, 0] S1x1
  shapeCasts_S131072_S2048x64 : S131072.ShapeCasts S2048x64
  reducesTo_S2048x64_S2048_d1 : S2048x64.ReducesTo [1] S2048
  h_S_ : 0 < S_.numel
  dot_S131072x384_S384x64_S131072x64_1_0_0_1_n_n_wf : DotDims.WF S131072x384 S384x64 S131072x64 [1] [0] [0] [1] [] []
  dot_S131072x64_S64x96_S131072x96_1_0_0_1_n_n_wf : DotDims.WF S131072x64 S64x96 S131072x96 [1] [0] [0] [1] [] []
  dot_S131072x96_S96x1_S131072x1_1_0_0_1_n_n_wf : DotDims.WF S131072x96 S96x1 S131072x1 [1] [0] [0] [1] [] []

variable [Facts₀]

def dot_S131072x384_S384x64_S131072x64_1_0_0_1_n_n : DotDims S131072x384 S384x64 S131072x64 where
  lhsContracting := [1]
  rhsContracting := [0]
  lhsNonContracting := [0]
  rhsNonContracting := [1]
  lhsBatch := []
  rhsBatch := []
  wf := dot_S131072x384_S384x64_S131072x64_1_0_0_1_n_n_wf
def dot_S131072x64_S64x96_S131072x96_1_0_0_1_n_n : DotDims S131072x64 S64x96 S131072x96 where
  lhsContracting := [1]
  rhsContracting := [0]
  lhsNonContracting := [0]
  rhsNonContracting := [1]
  lhsBatch := []
  rhsBatch := []
  wf := dot_S131072x64_S64x96_S131072x96_1_0_0_1_n_n_wf
def dot_S131072x96_S96x1_S131072x1_1_0_0_1_n_n : DotDims S131072x96 S96x1 S131072x1 where
  lhsContracting := [1]
  rhsContracting := [0]
  lhsNonContracting := [0]
  rhsNonContracting := [1]
  lhsBatch := []
  rhsBatch := []
  wf := dot_S131072x96_S96x1_S131072x1_1_0_0_1_n_n_wf

class Facts : Prop extends Facts₀ where

variable [Facts]
-- ==== Proof.Spec.lean ====
/-
  The mathematics both programs compute, stated once over the extended reals.

  A molecule batch has 2048 molecules of 64 atoms; atom row R (0 ≤ R < 131072) is atom R % 64 of molecule R / 64.
  Every atom's descriptor (384 numbers) goes through a shared affine layer and celu (64 outputs), then through each of
  8 species networks (an affine layer 64 → 96 with celu, then an affine layer 96 → 1); the atom's energy is the output
  of the network its species word names (zero when the word names none of 0..7), and a molecule's energy is the sum of
  its 64 atom energies.

  Two spellings of the same numbers follow: the whole-array one (`G`), and the one a tile of 8192 consecutive atom rows
  (128 molecules) computes from pre-arranged operands (`tileOut`): a one-hot species matrix, the 8 first layers laid side
  by side as one 64 × 768 matrix, the 8 second layers as one block-diagonal 768 × 8 matrix, and the molecule sum taken
  as a masked sum over the tile's rows.
-/
import Idealize.ShloMosaic.PureOps.Ideal
import Idealize.ShloMosaic.Lib.ValueIdx

noncomputable section

namespace Cert.Ani

open Idealize.ShloMosaic Idealize.ShloMosaic.ValueIdx

/-- celu with α = 1 in its branch-free form: max (x, e^{min (x, 0)} − 1). -/
def celu (x : EReal) : EReal := max x (Ideal.exp (min x 0) - 1)

/-- Molecule of atom row `R`. -/
abbrev mol (R : Fin 131072) : Fin 2048 := ⟨R.val / 64, by have := R.isLt; omega⟩
/-- Atom of atom row `R` inside its molecule. -/
abbrev atm (R : Fin 131072) : Fin 64 := ⟨R.val % 64, by omega⟩

section whole

variable (sp : IVec ⟨2, ![2048, 64]⟩ 32) (x : FVec Ideal ⟨3, ![2048, 64, 384]⟩ .f32)
  (ws : FVec Ideal ⟨2, ![384, 64]⟩ .f32) (bs : FVec Ideal ⟨1, ![64]⟩ .f32)
  (w1 : FVec Ideal ⟨3, ![8, 64, 96]⟩ .f32) (b1 : FVec Ideal ⟨2, ![8, 96]⟩ .f32)
  (w2 : FVec Ideal ⟨3, ![8, 96, 1]⟩ .f32) (b2 : FVec Ideal ⟨2, ![8, 1]⟩ .f32)

/-- Shared layer: output `q` for atom row `R`. -/
def sharedR (R : Fin 131072) (q : Fin 64) : EReal :=
  celu ((∑ d : Fin 384, x (ix3 (mol R) (atm R) d) * ws (ix2 d q)) + bs (ix1 q))

/-- Species network `e`, hidden unit `j`, for atom row `R`. -/
def hidR (R : Fin 131072) (e : Fin 8) (j : Fin 96) : EReal :=
  celu ((∑ q : Fin 64, sharedR x ws bs R q * w1 (ix3 e q j)) + b1 (ix2 e j))

/-- Species network `e`'s scalar output for atom row `R`. -/
def enR (R : Fin 131072) (e : Fin 8) : EReal :=
  (∑ j : Fin 96, hidR x ws bs w1 b1 R e j * w2 (ix3 e j (0 : Fin 1))) + b2 (ix2 e (0 : Fin 1))

/-- The atom's energy: the output of the network its species word names; at most one summand is not zero. -/
def selR (R : Fin 131072) : EReal :=
  ∑ e : Fin 8, if sp (ix2 (mol R) (atm R)) = BitVec.ofNat 32 e.val then enR x ws bs w1 b1 w2 b2 R e else 0

/-- Molecule energies: the sum of the molecule's 64 atom energies. -/
def G : FVec Ideal ⟨1, ![2048]⟩ .f32 := fun i =>
  ∑ a : Fin 64, selR sp x ws bs w1 b1 w2 b2 ⟨(i 0).val * 64 + a.val, by have h0 : (i 0).val < 2048 := (i 0).isLt; have := a.isLt; omega⟩

end whole

section tile

variable (oh : FVec Ideal ⟨2, ![8192, 8]⟩ .f32) (xr : FVec Ideal ⟨2, ![8192, 384]⟩ .f32)
  (ws : FVec Ideal ⟨2, ![384, 64]⟩ .f32) (bsv : FVec Ideal ⟨2, ![1, 64]⟩ .f32)
  (w1c : FVec Ideal ⟨2, ![64, 768]⟩ .f32) (b1c : FVec Ideal ⟨2, ![1, 768]⟩ .f32)
  (w2bd : FVec Ideal ⟨2, ![768, 8]⟩ .bf16) (b2v : FVec Ideal ⟨2, ![1, 8]⟩ .f32)

/-- Shared layer on tile row `r`. -/
def tl1 (r : Fin 8192) (q : Fin 64) : EReal :=
  celu ((∑ d : Fin 384, xr (ix2 r d) * ws (ix2 d q)) + bsv (ix2 (0 : Fin 1) q))

/-- The 8 first layers side by side: column `k` is hidden unit `k % 96` of network `k / 96`. -/
def tl2 (r : Fin 8192) (k : Fin 768) : EReal :=
  celu ((∑ q : Fin 64, tl1 xr ws bsv r q * w1c (ix2 q k)) + b1c (ix2 (0 : Fin 1) k))

/-- The 8 second layers as one 768 × 8 product: column `e` is network `e`'s scalar output. -/
def tl3 (r : Fin 8192) (e : Fin 8) : EReal :=
  (∑ k : Fin 768, tl2 xr ws bsv w1c b1c r k * w2bd (ix2 k e)) + b2v (ix2 (0 : Fin 1) e)

/-- The row's energy: the 8 outputs weighted by the row's one-hot species vector. -/
def rowE (r : Fin 8192) : EReal :=
  ∑ e : Fin 8, tl3 xr ws bsv w1c b1c w2bd b2v r e * oh (ix2 r e)

/-- Molecule `mm` of the tile: the sum over the tile's rows of the row energies of the rows with `r / 64 = mm`. -/
def tileOut (mm : Fin 128) : EReal :=
  ∑ r : Fin 8192, if r.val / 64 = mm.val then rowE oh xr ws bsv w1c b1c w2bd b2v r else 0

end tile

end Cert.Ani

end
-- ==== Proof.Algebra.lean ====
/-
  Algebra on the extended reals used to join the two programs: celu's two spellings are one function; a sum against a
  block-diagonal matrix keeps one block; a sum of rows masked by "row / 64 = molecule" is the sum over the molecule's
  64 rows; a one-hot weighting and a chain of selections pick the same summand.
-/
import proofs.«100109_g34385508172240_cont_8to1_b_268_15_alg».proof.Proof.Spec
import Idealize.ShloMosaic.PureOps.Ideal.Laws

noncomputable section

namespace Cert.Ani

open Idealize.ShloMosaic

/-- The f32 word 0x3F800000 is the number 1. -/
theorem ofBits_one_f32 : Ideal.ofBits .f32 0x3F800000#32 = 1 := by
  simp [Ideal.ofBits, Ideal.ieee]
  rw [← EReal.coe_mul]; norm_num

/-- Dividing by one changes nothing, infinities included. -/
theorem div_one' (y : EReal) : Ideal.div y 1 = y := by
  simp [Ideal.div]

theorem one_sub_one : (1 : EReal) - 1 = 0 := by
  rw [show (1 : EReal) = ((1 : ℝ) : EReal) from rfl, ← EReal.coe_sub]; norm_num

theorem exp_zero_sub_one : Ideal.exp 0 - 1 = 0 := by
  have : Ideal.exp 0 = ((Real.exp 0 : ℝ) : EReal) := rfl
  rw [this, Real.exp_zero]; exact one_sub_one

/-- celu spelt max (x, 0) + 1 · (e^{min (x, 0) / 1} − 1) is celu spelt max (x, e^{min (x, 0)} − 1), on every extended
    real: for x ≥ 0 both are x, for x ≤ 0 both are eˣ − 1 (as eˣ − 1 ≥ x), at −∞ both are −1, at +∞ both are +∞. -/
theorem celu_ref (x : EReal) : max x 0 + 1 * (Ideal.exp (Ideal.div (min x 0) 1) - 1) = celu x := by
  rw [div_one', one_mul]
  unfold celu
  induction x using EReal.rec with
  | bot => simp
  | top => simp [exp_zero_sub_one]
  | coe r =>
    rcases le_total r 0 with h | h
    · have h1 : max (r : EReal) 0 = 0 := max_eq_right (by exact_mod_cast h)
      have h2 : min (r : EReal) 0 = (r : EReal) := min_eq_left (by exact_mod_cast h)
      rw [h1, h2, zero_add, Ideal.exp_coe]
      have h3 : (r : EReal) ≤ ((Real.exp r : ℝ) : EReal) - 1 := by
        have := Real.add_one_le_exp r
        have h4 : ((Real.exp r : ℝ) : EReal) - 1 = ((Real.exp r - 1 : ℝ) : EReal) := by norm_cast
        rw [h4]; exact_mod_cast (by linarith : r ≤ Real.exp r - 1)
      exact (max_eq_right h3).symm
    · have h1 : max (r : EReal) 0 = (r : EReal) := max_eq_left (by exact_mod_cast h)
      have h2 : min (r : EReal) 0 = 0 := min_eq_right (by exact_mod_cast h)
      rw [h1, h2, exp_zero_sub_one, add_zero]
      exact (max_eq_left (by exact_mod_cast h)).symm

/-- A sum over 768 = 8 · 96 columns against a block-diagonal matrix (column k carries the weight of unit k % 96 of
    network k / 96 when k / 96 = e, and zero otherwise) is the sum over network e's 96 units: a product with zero is zero
    on the extended reals, infinities included. -/
theorem sum_blockdiag (f : Fin 768 → EReal) (w : Fin 8 → Fin 96 → EReal) (e : Fin 8) :
    (∑ k : Fin 768, f k * (w ⟨k.val / 96, by have := k.isLt; omega⟩ ⟨k.val % 96, by omega⟩ * (if k.val / 96 = e.val then (1 : EReal) else 0)))
      = ∑ j : Fin 96, f ⟨e.val * 96 + j.val, by have := e.isLt; have := j.isLt; omega⟩ * w e j := by
  have term : ∀ (k : Fin 768) (a : Fin 8) (j : Fin 96), k.val = a.val * 96 + j.val →
      f k * (w ⟨k.val / 96, by have := k.isLt; omega⟩ ⟨k.val % 96, by omega⟩ * (if k.val / 96 = e.val then (1 : EReal) else 0))
        = if a = e then f k * w a j else 0 := by
    intro k a j hk
    have hj := j.isLt
    have h1 : k.val / 96 = a.val := by omega
    have h2 : k.val % 96 = j.val := by omega
    have e1 : (⟨k.val / 96, by have := k.isLt; omega⟩ : Fin 8) = a := Fin.ext h1
    have e2 : (⟨k.val % 96, by omega⟩ : Fin 96) = j := Fin.ext h2
    rw [e1, e2, h1]
    by_cases hae : a = e
    · rw [if_pos hae, if_pos (congrArg Fin.val hae), mul_one]
    · rw [if_neg hae, if_neg (fun h => hae (Fin.ext h)), mul_zero, mul_zero]
  rw [← (finProdFinEquiv (m := 8) (n := 96)).sum_comp, Fintype.sum_prod_type]
  have inner : ∀ a : Fin 8, (∑ j : Fin 96,
      f (finProdFinEquiv (a, j)) * (w ⟨(finProdFinEquiv (a, j)).val / 96, by have := (finProdFinEquiv (a, j)).isLt; omega⟩ ⟨(finProdFinEquiv (a, j)).val % 96, by omega⟩ * (if (finProdFinEquiv (a, j)).val / 96 = e.val then (1 : EReal) else 0)))
      = if a = e then ∑ j : Fin 96, f ⟨a.val * 96 + j.val, by have := a.isLt; have := j.isLt; omega⟩ * w a j else 0 := by
    intro a
    have hterm : ∀ j : Fin 96, _ = _ := fun j => term (finProdFinEquiv (a, j)) a j (by show j.val + 96 * a.val = a.val * 96 + j.val; omega)
    rw [Finset.sum_congr rfl fun j _ => hterm j]
    by_cases hae : a = e
    · simp only [if_pos hae]
      refine Finset.sum_congr rfl fun j _ => ?_
      exact congrArg (fun k => f k * w a j) (Fin.ext (by show j.val + 96 * a.val = a.val * 96 + j.val; omega))
    · simp only [if_neg hae, Finset.sum_const_zero]
  rw [Finset.sum_congr rfl fun a _ => inner a, Finset.sum_ite_eq' Finset.univ e]
  simp only [Finset.mem_univ, if_true]

/-- A sum over a tile's 8192 = 128 · 64 rows that keeps the rows with r / 64 = mm is the sum over molecule mm's 64 rows. -/
theorem sum_mask (g : Fin 8192 → EReal) (mm : Fin 128) :
    (∑ r : Fin 8192, if r.val / 64 = mm.val then g r else 0)
      = ∑ a : Fin 64, g ⟨mm.val * 64 + a.val, by have := mm.isLt; have := a.isLt; omega⟩ := by
  rw [← (finProdFinEquiv (m := 128) (n := 64)).sum_comp, Fintype.sum_prod_type]
  rw [Finset.sum_eq_single mm]
  · refine Finset.sum_congr rfl fun a _ => ?_
    have ha := a.isLt; have hm := mm.isLt
    have hk : (finProdFinEquiv (mm, a)).val = a.val + 64 * mm.val := rfl
    have h1 : (a.val + 64 * mm.val) / 64 = mm.val := by omega
    rw [if_pos (by rw [hk]; exact h1)]
    exact congrArg g (Fin.ext (by rw [hk]; show a.val + 64 * mm.val = mm.val * 64 + a.val; omega))
  · intro b _ hb
    refine Finset.sum_eq_zero fun a _ => ?_
    have ha := a.isLt; have hbl := b.isLt
    have hk : (finProdFinEquiv (b, a)).val = a.val + 64 * b.val := rfl
    have h1 : (a.val + 64 * b.val) / 64 = b.val := by omega
    exact if_neg (by rw [hk, h1]; exact fun h => hb (Fin.ext h))
  · intro h; exact absurd (Finset.mem_univ mm) h

/-- Weighting 8 numbers by a one-hot vector keeps the one the species word names (and nothing when it names none). -/
theorem sum_onehot (y : Fin 8 → EReal) (s : BitVec 32) :
    (∑ e : Fin 8, y e * (if s = BitVec.ofNat 32 e.val then (1 : EReal) else 0))
      = ∑ e : Fin 8, if s = BitVec.ofNat 32 e.val then y e else 0 :=
  Finset.sum_congr rfl fun e _ => by split <;> simp

/-- Eight nested selections on "the species word is e", the last one written outermost and zero innermost, pick the
    one summand of the one-hot sum: the eight words are distinct, so at most one test holds. -/
theorem where_chain (y : Fin 8 → EReal) (s : BitVec 32) :
    (if s = 7#32 then y 7 else if s = 6#32 then y 6 else if s = 5#32 then y 5 else if s = 4#32 then y 4 else
      if s = 3#32 then y 3 else if s = 2#32 then y 2 else if s = 1#32 then y 1 else if s = 0#32 then y 0 else 0)
      = ∑ e : Fin 8, if s = BitVec.ofNat 32 e.val then y e else 0 := by
  rw [Fin.sum_univ_eight]
  show _ = (if s = 0#32 then y 0 else 0) + (if s = 1#32 then y 1 else 0) + (if s = 2#32 then y 2 else 0)
    + (if s = 3#32 then y 3 else 0) + (if s = 4#32 then y 4 else 0) + (if s = 5#32 then y 5 else 0)
    + (if s = 6#32 then y 6 else 0) + (if s = 7#32 then y 7 else 0)
  by_cases h7 : s = 7#32
  · subst h7; simp
  by_cases h6 : s = 6#32
  · subst h6; simp
  by_cases h5 : s = 5#32
  · subst h5; simp
  by_cases h4 : s = 4#32
  · subst h4; simp
  by_cases h3 : s = 3#32
  · subst h3; simp
  by_cases h2 : s = 2#32
  · subst h2; simp
  by_cases h1 : s = 1#32
  · subst h1; simp
  by_cases h0 : s = 0#32
  · subst h0; simp
  simp [h0, h1, h2, h3, h4, h5, h6, h7]

end Cert.Ani

end
-- ==== Proof.RefSide.lean ====
/-
  The reference program's shared layer and its eight species networks, read index by index, are the specification's.

  The reference computes on atom rows R (0 ≤ R < 131072, row R being atom R % 64 of molecule R / 64): the shared affine
  layer with celu; for each of the 8 species networks an affine layer with celu and a second affine layer (the
  selections on the atom's species word and the sum over each molecule's 64 rows are read in another module). Each stage
  is read at explicit coordinates and identified with the corresponding function of the specification.
-/
import proofs.«100109_g34385508172240_cont_8to1_b_268_15_alg».proof.Proof.Spec
import proofs.«100109_g34385508172240_cont_8to1_b_268_15_alg».proof.Proof.Algebra
import proofs.«100109_g34385508172240_cont_8to1_b_268_15_alg».proof.Proof.RefRead
import Idealize.ShloMosaic.Lib.ValueIdx
import Idealize.ShloMosaic.PureOps.Ideal.Laws

noncomputable section

namespace Cert.Ani

open Idealize.ShloMosaic Idealize.ShloMosaic.ValueIdx Cert.ReferenceIdeal Cert.ReferenceIdeal.ReadP

/-! ## The shared layer -/

/-- The reshape [2048, 64, 384] → [131072, 384] read at row R, column d: molecule R / 64, atom R % 64, column d. -/
theorem idx_x (R : Fin 131072) (q : Fin 64) (k : Fin 384) :
    idx_main_v1 (lidx_main_v2 (ix2 R q) k) = ix3 (mol R) (atm R) k := by
  funext a
  apply Fin.ext
  match a with
  | ⟨0, _⟩ => show (R.val * 384 + k.val) / 24576 = R.val / 64; omega
  | ⟨1, _⟩ => show (R.val * 384 + k.val) / 384 % 64 = R.val % 64; omega
  | ⟨2, _⟩ => show (R.val * 384 + k.val) % 384 = k.val; omega

theorem idx_ws (R : Fin 131072) (q : Fin 64) (k : Fin 384) :
    ridx_main_v2 (ix2 R q) k = ix2 k q := by
  funext a
  match a with
  | ⟨0, _⟩ => rfl
  | ⟨1, _⟩ => rfl

theorem idx_bs (R : Fin 131072) (q : Fin 64) :
    idx_main_v3 (idx_main_v4 (ix2 R q)) = ix1 q := by
  funext a
  match a with
  | ⟨0, _⟩ => rfl

/-- The shared layer's output q for atom row R. -/
theorem shared_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (R : Fin 131072) (q : Fin 64) :
    val_main_v6 (F := Ideal) x1 x2 x3 (ix2 R q) = sharedR x1 x2 x3 R q := by
  simp only [val_main_v6_apply, val_main_call0_v1_apply, val_main_call0_v0_apply, val_main_call0_cst_apply,
    val_main_call0_v8_apply, val_main_call0_v7_apply, val_main_call0_cst_2_apply, val_main_call0_v6_apply,
    val_main_call0_v5_apply, val_main_call0_v3_apply, val_main_call0_v2_apply, val_main_call0_cst_0_apply,
    val_main_call0_v4_apply, val_main_call0_cst_1_apply, val_main_v5_apply, val_main_v2_apply, val_main_v4_apply,
    val_main_v3_apply, val_main_v1_apply, idx_x, idx_ws, idx_bs,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

/-! ## Species network 0 -/

theorem idx_sh0 (R : Fin 131072) (j : Fin 96) (k : Fin 64) :
    lidx_main_v10 (ix2 R j) k = ix2 R k := by
  funext a
  match a with
  | ⟨0, _⟩ => rfl
  | ⟨1, _⟩ => rfl

/-- Slice 0 of the first-layer weights, reshaped to [64, 96], read at row k, column j. -/
theorem idx_w1_0 (R : Fin 131072) (j : Fin 96) (k : Fin 64) :
    idx_main_v8 (idx_main_v9 (ridx_main_v10 (ix2 R j) k)) = ix3 (0 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_0 (R : Fin 131072) (j : Fin 96) :
    idx_main_v11 (idx_main_v12 (idx_main_v13 (idx_main_v14 (ix2 R j)))) = ix2 (0 : Fin 8) j := by
  funext a
  apply Fin.ext
  match a with
  | ⟨0, _⟩ => rfl
  | ⟨1, _⟩ => show j.val % 96 = j.val; omega

/-- Network 0's hidden unit j for atom row R. -/
theorem hid0_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v16 (F := Ideal) x1 x2 x3 x4 x5 (ix2 R j) = hidR x1 x2 x3 x4 x5 R (0 : Fin 8) j := by
  simp only [val_main_v16_apply, val_main_call1_v1_apply, val_main_call1_v0_apply, val_main_call1_cst_apply,
    val_main_call1_v8_apply, val_main_call1_v7_apply, val_main_call1_cst_2_apply, val_main_call1_v6_apply,
    val_main_call1_v5_apply, val_main_call1_v3_apply, val_main_call1_v2_apply, val_main_call1_cst_0_apply,
    val_main_call1_v4_apply, val_main_call1_cst_1_apply, val_main_v15_apply, val_main_v10_apply, val_main_v14_apply,
    val_main_v13_apply, val_main_v12_apply, val_main_v11_apply, val_main_v9_apply, val_main_v8_apply,
    idx_sh0, idx_w1_0, idx_b1_0, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid0 (R : Fin 131072) (k : Fin 96) :
    lidx_main_v19 (idx_main_v25 (ix1 R)) k = ix2 R k := by
  funext a
  apply Fin.ext
  match a with
  | ⟨0, _⟩ => show R.val / 1 = R.val; omega
  | ⟨1, _⟩ => rfl

/-- Slice 0 of the second-layer weights, reshaped to [96, 1], read at row k. -/
theorem idx_w2_0 (R : Fin 131072) (k : Fin 96) :
    idx_main_v17 (idx_main_v18 (ridx_main_v19 (idx_main_v25 (ix1 R)) k)) = ix3 (0 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_0 (R : Fin 131072) :
    idx_main_v20 (idx_main_v21 (idx_main_v22 (idx_main_v23 (idx_main_v25 (ix1 R))))) = ix2 (0 : Fin 8) (0 : Fin 1) := by
  funext a
  apply Fin.ext
  match a with
  | ⟨0, _⟩ => rfl
  | ⟨1, _⟩ => rfl

/-- Network 0's scalar output for atom row R. -/
theorem en0_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v25 (F := Ideal) x1 x2 x3 x4 x5 x6 x7 (ix1 R) = enR x1 x2 x3 x4 x5 x6 x7 R 0 := by
  simp only [val_main_v25_apply, val_main_v24_apply, val_main_v19_apply, val_main_v23_apply, val_main_v22_apply,
    val_main_v21_apply, val_main_v20_apply, val_main_v18_apply, val_main_v17_apply,
    idx_hid0, idx_w2_0, idx_b2_0, hid0_eq, Ideal.addf_def]
  rfl

/-! ## Species network 1 -/

theorem idx_sh1 (R : Fin 131072) (j : Fin 96) (k : Fin 64) :
    lidx_main_v31 (ix2 R j) k = ix2 R k := by
  funext a
  match a with
  | ⟨0, _⟩ => rfl
  | ⟨1, _⟩ => rfl

/-- Slice 1 of the first-layer weights, reshaped to [64, 96], read at row k, column j. -/
theorem idx_w1_1 (R : Fin 131072) (j : Fin 96) (k : Fin 64) :
    idx_main_v29 (idx_main_v30 (ridx_main_v31 (ix2 R j) k)) = ix3 (1 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_1 (R : Fin 131072) (j : Fin 96) :
    idx_main_v32 (idx_main_v33 (idx_main_v34 (idx_main_v35 (ix2 R j)))) = ix2 (1 : Fin 8) j := by
  funext a
  apply Fin.ext
  match a with
  | ⟨0, _⟩ => rfl
  | ⟨1, _⟩ => show j.val % 96 = j.val; omega

/-- Network 1's hidden unit j for atom row R. -/
theorem hid1_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v37 (F := Ideal) x1 x2 x3 x4 x5 (ix2 R j) = hidR x1 x2 x3 x4 x5 R (1 : Fin 8) j := by
  simp only [val_main_v37_apply, val_main_call3_v1_apply, val_main_call3_v0_apply, val_main_call3_cst_apply,
    val_main_call3_v8_apply, val_main_call3_v7_apply, val_main_call3_cst_2_apply, val_main_call3_v6_apply,
    val_main_call3_v5_apply, val_main_call3_v3_apply, val_main_call3_v2_apply, val_main_call3_cst_0_apply,
    val_main_call3_v4_apply, val_main_call3_cst_1_apply, val_main_v36_apply, val_main_v31_apply, val_main_v35_apply,
    val_main_v34_apply, val_main_v33_apply, val_main_v32_apply, val_main_v30_apply, val_main_v29_apply,
    idx_sh1, idx_w1_1, idx_b1_1, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid1 (R : Fin 131072) (k : Fin 96) :
    lidx_main_v40 (idx_main_v46 (ix1 R)) k = ix2 R k := by
  funext a
  apply Fin.ext
  match a with
  | ⟨0, _⟩ => show R.val / 1 = R.val; omega
  | ⟨1, _⟩ => rfl

/-- Slice 1 of the second-layer weights, reshaped to [96, 1], read at row k. -/
theorem idx_w2_1 (R : Fin 131072) (k : Fin 96) :
    idx_main_v38 (idx_main_v39 (ridx_main_v40 (idx_main_v46 (ix1 R)) k)) = ix3 (1 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_1 (R : Fin 131072) :
    idx_main_v41 (idx_main_v42 (idx_main_v43 (idx_main_v44 (idx_main_v46 (ix1 R))))) = ix2 (1 : Fin 8) (0 : Fin 1) := by
  funext a
  apply Fin.ext
  match a with
  | ⟨0, _⟩ => rfl
  | ⟨1, _⟩ => rfl

/-- Network 1's scalar output for atom row R. -/
theorem en1_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v46 (F := Ideal) x1 x2 x3 x4 x5 x6 x7 (ix1 R) = enR x1 x2 x3 x4 x5 x6 x7 R (1 : Fin 8) := by
  simp only [val_main_v46_apply, val_main_v45_apply, val_main_v40_apply, val_main_v44_apply, val_main_v43_apply,
    val_main_v42_apply, val_main_v41_apply, val_main_v39_apply, val_main_v38_apply,
    idx_hid1, idx_w2_1, idx_b2_1, hid1_eq, Ideal.addf_def]
  rfl

/-! ## Species network 2 -/

theorem idx_sh2 (R : Fin 131072) (j : Fin 96) (k : Fin 64) :
    lidx_main_v52 (ix2 R j) k = ix2 R k := by
  funext a
  match a with
  | ⟨0, _⟩ => rfl
  | ⟨1, _⟩ => rfl

/-- Slice 2 of the first-layer weights, reshaped to [64, 96], read at row k, column j. -/
theorem idx_w1_2 (R : Fin 131072) (j : Fin 96) (k : Fin 64) :
    idx_main_v50 (idx_main_v51 (ridx_main_v52 (ix2 R j) k)) = ix3 (2 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_2 (R : Fin 131072) (j : Fin 96) :
    idx_main_v53 (idx_main_v54 (idx_main_v55 (idx_main_v56 (ix2 R j)))) = ix2 (2 : Fin 8) j := by
  funext a
  apply Fin.ext
  match a with
  | ⟨0, _⟩ => rfl
  | ⟨1, _⟩ => show j.val % 96 = j.val; omega

/-- Network 2's hidden unit j for atom row R. -/
theorem hid2_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v58 (F := Ideal) x1 x2 x3 x4 x5 (ix2 R j) = hidR x1 x2 x3 x4 x5 R (2 : Fin 8) j := by
  simp only [val_main_v58_apply, val_main_call5_v1_apply, val_main_call5_v0_apply, val_main_call5_cst_apply,
    val_main_call5_v8_apply, val_main_call5_v7_apply, val_main_call5_cst_2_apply, val_main_call5_v6_apply,
    val_main_call5_v5_apply, val_main_call5_v3_apply, val_main_call5_v2_apply, val_main_call5_cst_0_apply,
    val_main_call5_v4_apply, val_main_call5_cst_1_apply, val_main_v57_apply, val_main_v52_apply, val_main_v56_apply,
    val_main_v55_apply, val_main_v54_apply, val_main_v53_apply, val_main_v51_apply, val_main_v50_apply,
    idx_sh2, idx_w1_2, idx_b1_2, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid2 (R : Fin 131072) (k : Fin 96) :
    lidx_main_v61 (idx_main_v67 (ix1 R)) k = ix2 R k := by
  funext a
  apply Fin.ext
  match a with
  | ⟨0, _⟩ => show R.val / 1 = R.val; omega
  | ⟨1, _⟩ => rfl

/-- Slice 2 of the second-layer weights, reshaped to [96, 1], read at row k. -/
theorem idx_w2_2 (R : Fin 131072) (k : Fin 96) :
    idx_main_v59 (idx_main_v60 (ridx_main_v61 (idx_main_v67 (ix1 R)) k)) = ix3 (2 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_2 (R : Fin 131072) :
    idx_main_v62 (idx_main_v63 (idx_main_v64 (idx_main_v65 (idx_main_v67 (ix1 R))))) = ix2 (2 : Fin 8) (0 : Fin 1) := by
  funext a
  apply Fin.ext
  match a with
  | ⟨0, _⟩ => rfl
  | ⟨1, _⟩ => rfl

/-- Network 2's scalar output for atom row R. -/
theorem en2_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v67 (F := Ideal) x1 x2 x3 x4 x5 x6 x7 (ix1 R) = enR x1 x2 x3 x4 x5 x6 x7 R (2 : Fin 8) := by
  simp only [val_main_v67_apply, val_main_v66_apply, val_main_v61_apply, val_main_v65_apply, val_main_v64_apply,
    val_main_v63_apply, val_main_v62_apply, val_main_v60_apply, val_main_v59_apply,
    idx_hid2, idx_w2_2, idx_b2_2, hid2_eq, Ideal.addf_def]
  rfl

/-! ## Species network 3 -/

theorem idx_sh3 (R : Fin 131072) (j : Fin 96) (k : Fin 64) :
    lidx_main_v73 (ix2 R j) k = ix2 R k := by
  funext a
  match a with
  | ⟨0, _⟩ => rfl
  | ⟨1, _⟩ => rfl

/-- Slice 3 of the first-layer weights, reshaped to [64, 96], read at row k, column j. -/
theorem idx_w1_3 (R : Fin 131072) (j : Fin 96) (k : Fin 64) :
    idx_main_v71 (idx_main_v72 (ridx_main_v73 (ix2 R j) k)) = ix3 (3 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_3 (R : Fin 131072) (j : Fin 96) :
    idx_main_v74 (idx_main_v75 (idx_main_v76 (idx_main_v77 (ix2 R j)))) = ix2 (3 : Fin 8) j := by
  funext a
  apply Fin.ext
  match a with
  | ⟨0, _⟩ => rfl
  | ⟨1, _⟩ => show j.val % 96 = j.val; omega

/-- Network 3's hidden unit j for atom row R. -/
theorem hid3_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v79 (F := Ideal) x1 x2 x3 x4 x5 (ix2 R j) = hidR x1 x2 x3 x4 x5 R (3 : Fin 8) j := by
  simp only [val_main_v79_apply, val_main_call7_v1_apply, val_main_call7_v0_apply, val_main_call7_cst_apply,
    val_main_call7_v8_apply, val_main_call7_v7_apply, val_main_call7_cst_2_apply, val_main_call7_v6_apply,
    val_main_call7_v5_apply, val_main_call7_v3_apply, val_main_call7_v2_apply, val_main_call7_cst_0_apply,
    val_main_call7_v4_apply, val_main_call7_cst_1_apply, val_main_v78_apply, val_main_v73_apply, val_main_v77_apply,
    val_main_v76_apply, val_main_v75_apply, val_main_v74_apply, val_main_v72_apply, val_main_v71_apply,
    idx_sh3, idx_w1_3, idx_b1_3, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid3 (R : Fin 131072) (k : Fin 96) :
    lidx_main_v82 (idx_main_v88 (ix1 R)) k = ix2 R k := by
  funext a
  apply Fin.ext
  match a with
  | ⟨0, _⟩ => show R.val / 1 = R.val; omega
  | ⟨1, _⟩ => rfl

/-- Slice 3 of the second-layer weights, reshaped to [96, 1], read at row k. -/
theorem idx_w2_3 (R : Fin 131072) (k : Fin 96) :
    idx_main_v80 (idx_main_v81 (ridx_main_v82 (idx_main_v88 (ix1 R)) k)) = ix3 (3 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_3 (R : Fin 131072) :
    idx_main_v83 (idx_main_v84 (idx_main_v85 (idx_main_v86 (idx_main_v88 (ix1 R))))) = ix2 (3 : Fin 8) (0 : Fin 1) := by
  funext a
  apply Fin.ext
  match a with
  | ⟨0, _⟩ => rfl
  | ⟨1, _⟩ => rfl

/-- Network 3's scalar output for atom row R. -/
theorem en3_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v88 (F := Ideal) x1 x2 x3 x4 x5 x6 x7 (ix1 R) = enR x1 x2 x3 x4 x5 x6 x7 R (3 : Fin 8) := by
  simp only [val_main_v88_apply, val_main_v87_apply, val_main_v82_apply, val_main_v86_apply, val_main_v85_apply,
    val_main_v84_apply, val_main_v83_apply, val_main_v81_apply, val_main_v80_apply,
    idx_hid3, idx_w2_3, idx_b2_3, hid3_eq, Ideal.addf_def]
  rfl

/-! ## Species network 4 -/

theorem idx_sh4 (R : Fin 131072) (j : Fin 96) (k : Fin 64) :
    lidx_main_v94 (ix2 R j) k = ix2 R k := by
  funext a
  match a with
  | ⟨0, _⟩ => rfl
  | ⟨1, _⟩ => rfl

/-- Slice 4 of the first-layer weights, reshaped to [64, 96], read at row k, column j. -/
theorem idx_w1_4 (R : Fin 131072) (j : Fin 96) (k : Fin 64) :
    idx_main_v92 (idx_main_v93 (ridx_main_v94 (ix2 R j) k)) = ix3 (4 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_4 (R : Fin 131072) (j : Fin 96) :
    idx_main_v95 (idx_main_v96 (idx_main_v97 (idx_main_v98 (ix2 R j)))) = ix2 (4 : Fin 8) j := by
  funext a
  apply Fin.ext
  match a with
  | ⟨0, _⟩ => rfl
  | ⟨1, _⟩ => show j.val % 96 = j.val; omega

/-- Network 4's hidden unit j for atom row R. -/
theorem hid4_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v100 (F := Ideal) x1 x2 x3 x4 x5 (ix2 R j) = hidR x1 x2 x3 x4 x5 R (4 : Fin 8) j := by
  simp only [val_main_v100_apply, val_main_call9_v1_apply, val_main_call9_v0_apply, val_main_call9_cst_apply,
    val_main_call9_v8_apply, val_main_call9_v7_apply, val_main_call9_cst_2_apply, val_main_call9_v6_apply,
    val_main_call9_v5_apply, val_main_call9_v3_apply, val_main_call9_v2_apply, val_main_call9_cst_0_apply,
    val_main_call9_v4_apply, val_main_call9_cst_1_apply, val_main_v99_apply, val_main_v94_apply, val_main_v98_apply,
    val_main_v97_apply, val_main_v96_apply, val_main_v95_apply, val_main_v93_apply, val_main_v92_apply,
    idx_sh4, idx_w1_4, idx_b1_4, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid4 (R : Fin 131072) (k : Fin 96) :
    lidx_main_v103 (idx_main_v109 (ix1 R)) k = ix2 R k := by
  funext a
  apply Fin.ext
  match a with
  | ⟨0, _⟩ => show R.val / 1 = R.val; omega
  | ⟨1, _⟩ => rfl

/-- Slice 4 of the second-layer weights, reshaped to [96, 1], read at row k. -/
theorem idx_w2_4 (R : Fin 131072) (k : Fin 96) :
    idx_main_v101 (idx_main_v102 (ridx_main_v103 (idx_main_v109 (ix1 R)) k)) = ix3 (4 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_4 (R : Fin 131072) :
    idx_main_v104 (idx_main_v105 (idx_main_v106 (idx_main_v107 (idx_main_v109 (ix1 R))))) = ix2 (4 : Fin 8) (0 : Fin 1) := by
  funext a
  apply Fin.ext
  match a with
  | ⟨0, _⟩ => rfl
  | ⟨1, _⟩ => rfl

/-- Network 4's scalar output for atom row R. -/
theorem en4_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v109 (F := Ideal) x1 x2 x3 x4 x5 x6 x7 (ix1 R) = enR x1 x2 x3 x4 x5 x6 x7 R (4 : Fin 8) := by
  simp only [val_main_v109_apply, val_main_v108_apply, val_main_v103_apply, val_main_v107_apply, val_main_v106_apply,
    val_main_v105_apply, val_main_v104_apply, val_main_v102_apply, val_main_v101_apply,
    idx_hid4, idx_w2_4, idx_b2_4, hid4_eq, Ideal.addf_def]
  rfl

/-! ## Species network 5 -/

theorem idx_sh5 (R : Fin 131072) (j : Fin 96) (k : Fin 64) :
    lidx_main_v115 (ix2 R j) k = ix2 R k := by
  funext a
  match a with
  | ⟨0, _⟩ => rfl
  | ⟨1, _⟩ => rfl

/-- Slice 5 of the first-layer weights, reshaped to [64, 96], read at row k, column j. -/
theorem idx_w1_5 (R : Fin 131072) (j : Fin 96) (k : Fin 64) :
    idx_main_v113 (idx_main_v114 (ridx_main_v115 (ix2 R j) k)) = ix3 (5 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_5 (R : Fin 131072) (j : Fin 96) :
    idx_main_v116 (idx_main_v117 (idx_main_v118 (idx_main_v119 (ix2 R j)))) = ix2 (5 : Fin 8) j := by
  funext a
  apply Fin.ext
  match a with
  | ⟨0, _⟩ => rfl
  | ⟨1, _⟩ => show j.val % 96 = j.val; omega

/-- Network 5's hidden unit j for atom row R. -/
theorem hid5_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v121 (F := Ideal) x1 x2 x3 x4 x5 (ix2 R j) = hidR x1 x2 x3 x4 x5 R (5 : Fin 8) j := by
  simp only [val_main_v121_apply, val_main_call11_v1_apply, val_main_call11_v0_apply, val_main_call11_cst_apply,
    val_main_call11_v8_apply, val_main_call11_v7_apply, val_main_call11_cst_2_apply, val_main_call11_v6_apply,
    val_main_call11_v5_apply, val_main_call11_v3_apply, val_main_call11_v2_apply, val_main_call11_cst_0_apply,
    val_main_call11_v4_apply, val_main_call11_cst_1_apply, val_main_v120_apply, val_main_v115_apply, val_main_v119_apply,
    val_main_v118_apply, val_main_v117_apply, val_main_v116_apply, val_main_v114_apply, val_main_v113_apply,
    idx_sh5, idx_w1_5, idx_b1_5, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid5 (R : Fin 131072) (k : Fin 96) :
    lidx_main_v124 (idx_main_v130 (ix1 R)) k = ix2 R k := by
  funext a
  apply Fin.ext
  match a with
  | ⟨0, _⟩ => show R.val / 1 = R.val; omega
  | ⟨1, _⟩ => rfl

/-- Slice 5 of the second-layer weights, reshaped to [96, 1], read at row k. -/
theorem idx_w2_5 (R : Fin 131072) (k : Fin 96) :
    idx_main_v122 (idx_main_v123 (ridx_main_v124 (idx_main_v130 (ix1 R)) k)) = ix3 (5 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_5 (R : Fin 131072) :
    idx_main_v125 (idx_main_v126 (idx_main_v127 (idx_main_v128 (idx_main_v130 (ix1 R))))) = ix2 (5 : Fin 8) (0 : Fin 1) := by
  funext a
  apply Fin.ext
  match a with
  | ⟨0, _⟩ => rfl
  | ⟨1, _⟩ => rfl

/-- Network 5's scalar output for atom row R. -/
theorem en5_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v130 (F := Ideal) x1 x2 x3 x4 x5 x6 x7 (ix1 R) = enR x1 x2 x3 x4 x5 x6 x7 R (5 : Fin 8) := by
  simp only [val_main_v130_apply, val_main_v129_apply, val_main_v124_apply, val_main_v128_apply, val_main_v127_apply,
    val_main_v126_apply, val_main_v125_apply, val_main_v123_apply, val_main_v122_apply,
    idx_hid5, idx_w2_5, idx_b2_5, hid5_eq, Ideal.addf_def]
  rfl

/-! ## Species network 6 -/

theorem idx_sh6 (R : Fin 131072) (j : Fin 96) (k : Fin 64) :
    lidx_main_v136 (ix2 R j) k = ix2 R k := by
  funext a
  match a with
  | ⟨0, _⟩ => rfl
  | ⟨1, _⟩ => rfl

/-- Slice 6 of the first-layer weights, reshaped to [64, 96], read at row k, column j. -/
theorem idx_w1_6 (R : Fin 131072) (j : Fin 96) (k : Fin 64) :
    idx_main_v134 (idx_main_v135 (ridx_main_v136 (ix2 R j) k)) = ix3 (6 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_6 (R : Fin 131072) (j : Fin 96) :
    idx_main_v137 (idx_main_v138 (idx_main_v139 (idx_main_v140 (ix2 R j)))) = ix2 (6 : Fin 8) j := by
  funext a
  apply Fin.ext
  match a with
  | ⟨0, _⟩ => rfl
  | ⟨1, _⟩ => show j.val % 96 = j.val; omega

/-- Network 6's hidden unit j for atom row R. -/
theorem hid6_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v142 (F := Ideal) x1 x2 x3 x4 x5 (ix2 R j) = hidR x1 x2 x3 x4 x5 R (6 : Fin 8) j := by
  simp only [val_main_v142_apply, val_main_call13_v1_apply, val_main_call13_v0_apply, val_main_call13_cst_apply,
    val_main_call13_v8_apply, val_main_call13_v7_apply, val_main_call13_cst_2_apply, val_main_call13_v6_apply,
    val_main_call13_v5_apply, val_main_call13_v3_apply, val_main_call13_v2_apply, val_main_call13_cst_0_apply,
    val_main_call13_v4_apply, val_main_call13_cst_1_apply, val_main_v141_apply, val_main_v136_apply, val_main_v140_apply,
    val_main_v139_apply, val_main_v138_apply, val_main_v137_apply, val_main_v135_apply, val_main_v134_apply,
    idx_sh6, idx_w1_6, idx_b1_6, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid6 (R : Fin 131072) (k : Fin 96) :
    lidx_main_v145 (idx_main_v151 (ix1 R)) k = ix2 R k := by
  funext a
  apply Fin.ext
  match a with
  | ⟨0, _⟩ => show R.val / 1 = R.val; omega
  | ⟨1, _⟩ => rfl

/-- Slice 6 of the second-layer weights, reshaped to [96, 1], read at row k. -/
theorem idx_w2_6 (R : Fin 131072) (k : Fin 96) :
    idx_main_v143 (idx_main_v144 (ridx_main_v145 (idx_main_v151 (ix1 R)) k)) = ix3 (6 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_6 (R : Fin 131072) :
    idx_main_v146 (idx_main_v147 (idx_main_v148 (idx_main_v149 (idx_main_v151 (ix1 R))))) = ix2 (6 : Fin 8) (0 : Fin 1) := by
  funext a
  apply Fin.ext
  match a with
  | ⟨0, _⟩ => rfl
  | ⟨1, _⟩ => rfl

/-- Network 6's scalar output for atom row R. -/
theorem en6_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v151 (F := Ideal) x1 x2 x3 x4 x5 x6 x7 (ix1 R) = enR x1 x2 x3 x4 x5 x6 x7 R (6 : Fin 8) := by
  simp only [val_main_v151_apply, val_main_v150_apply, val_main_v145_apply, val_main_v149_apply, val_main_v148_apply,
    val_main_v147_apply, val_main_v146_apply, val_main_v144_apply, val_main_v143_apply,
    idx_hid6, idx_w2_6, idx_b2_6, hid6_eq, Ideal.addf_def]
  rfl

/-! ## Species network 7 -/

theorem idx_sh7 (R : Fin 131072) (j : Fin 96) (k : Fin 64) :
    lidx_main_v157 (ix2 R j) k = ix2 R k := by
  funext a
  match a with
  | ⟨0, _⟩ => rfl
  | ⟨1, _⟩ => rfl

/-- Slice 7 of the first-layer weights, reshaped to [64, 96], read at row k, column j. -/
theorem idx_w1_7 (R : Fin 131072) (j : Fin 96) (k : Fin 64) :
    idx_main_v155 (idx_main_v156 (ridx_main_v157 (ix2 R j) k)) = ix3 (7 : Fin 8) k j := by
  funext a
  apply Fin.ext
  match a with
  | ⟨0, _⟩ => rfl
  | ⟨1, _⟩ => show (k.val * 96 + j.val) / 96 % 64 = k.val; omega
  | ⟨2, _⟩ => show (k.val * 96 + j.val) % 96 = j.val; omega

theorem idx_b1_7 (R : Fin 131072) (j : Fin 96) :
    idx_main_v158 (idx_main_v159 (idx_main_v160 (idx_main_v161 (ix2 R j)))) = ix2 (7 : Fin 8) j := by
  funext a
  apply Fin.ext
  match a with
  | ⟨0, _⟩ => rfl
  | ⟨1, _⟩ => show j.val % 96 = j.val; omega

/-- Network 7's hidden unit j for atom row R. -/
theorem hid7_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (R : Fin 131072) (j : Fin 96) :
    val_main_v163 (F := Ideal) x1 x2 x3 x4 x5 (ix2 R j) = hidR x1 x2 x3 x4 x5 R (7 : Fin 8) j := by
  simp only [val_main_v163_apply, val_main_call15_v1_apply, val_main_call15_v0_apply, val_main_call15_cst_apply,
    val_main_call15_v8_apply, val_main_call15_v7_apply, val_main_call15_cst_2_apply, val_main_call15_v6_apply,
    val_main_call15_v5_apply, val_main_call15_v3_apply, val_main_call15_v2_apply, val_main_call15_cst_0_apply,
    val_main_call15_v4_apply, val_main_call15_cst_1_apply, val_main_v162_apply, val_main_v157_apply, val_main_v161_apply,
    val_main_v160_apply, val_main_v159_apply, val_main_v158_apply, val_main_v156_apply, val_main_v155_apply,
    idx_sh7, idx_w1_7, idx_b1_7, shared_eq,
    Ideal.addf_def, Ideal.mulf_def, Ideal.maximumf_def, Ideal.minimumf_def, Ideal.hostDivf_def,
    Ideal.hostUnary_expm1_def, Ideal.ofBits_def, Ideal.ofBits_zero_f32, ofBits_one_f32, celu_ref]
  rfl

theorem idx_hid7 (R : Fin 131072) (k : Fin 96) :
    lidx_main_v166 (idx_main_v172 (ix1 R)) k = ix2 R k := by
  funext a
  apply Fin.ext
  match a with
  | ⟨0, _⟩ => show R.val / 1 = R.val; omega
  | ⟨1, _⟩ => rfl

/-- Slice 7 of the second-layer weights, reshaped to [96, 1], read at row k. -/
theorem idx_w2_7 (R : Fin 131072) (k : Fin 96) :
    idx_main_v164 (idx_main_v165 (ridx_main_v166 (idx_main_v172 (ix1 R)) k)) = ix3 (7 : Fin 8) k (0 : Fin 1) := by
  funext a
  apply Fin.ext
  match a with
  | ⟨0, _⟩ => rfl
  | ⟨1, _⟩ => show (k.val * 1 + 0) / 1 % 96 = k.val; omega
  | ⟨2, _⟩ => rfl

theorem idx_b2_7 (R : Fin 131072) :
    idx_main_v167 (idx_main_v168 (idx_main_v169 (idx_main_v170 (idx_main_v172 (ix1 R))))) = ix2 (7 : Fin 8) (0 : Fin 1) := by
  funext a
  apply Fin.ext
  match a with
  | ⟨0, _⟩ => rfl
  | ⟨1, _⟩ => rfl

/-- Network 7's scalar output for atom row R. -/
theorem en7_eq (x1 : (⟨S2048x64x384, .f32⟩ : BufTy).Contents (Elt Ideal)) (x2 : (⟨S384x64, .f32⟩ : BufTy).Contents (Elt Ideal)) (x3 : (⟨S64, .f32⟩ : BufTy).Contents (Elt Ideal)) (x4 : (⟨S8x64x96, .f32⟩ : BufTy).Contents (Elt Ideal)) (x5 : (⟨S8x96, .f32⟩ : BufTy).Contents (Elt Ideal)) (x6 : (⟨S8x96x1, .f32⟩ : BufTy).Contents (Elt Ideal)) (x7 : (⟨S8x1, .f32⟩ : BufTy).Contents (Elt Ideal)) (R : Fin 131072) :
    val_main_v172 (F := Ideal) x1 x2 x3 x4 x5 x6 x7 (ix1 R) = enR x1 x2 x3 x4 x5 x6 x7 R (7 : Fin 8) := by
  simp only [val_main_v172_apply, val_main_v171_apply, val_main_v166_apply, val_main_v170_apply, val_main_v169_apply,
    val_main_v168_apply, val_main_v167_apply, val_main_v165_apply, val_main_v164_apply,
    idx_hid7, idx_w2_7, idx_b2_7, hid7_eq, Ideal.addf_def]
  rfl

end Cert.Ani

end
-- ==== Proof.RefSel.lean ====
/-
  THE REFERENCE'S LAST STEPS: FROM THE EIGHT NETWORKS' OUTPUTS TO THE MOLECULE ENERGIES.
  For each network e = 0 … 7 the reference holds that network's output for every atom row; starting from zeros it
  overwrites, network by network, the rows whose species word is e with network e's output; it then views the 131072 atom
  energies as 2048 molecules of 64 atoms and sums each molecule's atoms from an initial value zero. Given that each of the
  eight outputs is the network's scalar output of the specification, the result is the specification's molecule energies:
  the chain of eight selections is the one-hot sum over the networks, row b · 64 + a is atom a of molecule b, and the
  initial zero adds nothing.
-/
import proofs.«100109_g34385508172240_cont_8to1_b_268_15_alg».proof.Proof.Spec
import proofs.«100109_g34385508172240_cont_8to1_b_268_15_alg».proof.Proof.Algebra
import proofs.«100109_g34385508172240_cont_8to1_b_268_15_alg».proof.Proof.RefRead
import Idealize.ShloMosaic.Lib.ValueIdx
import Idealize.ShloMosaic.PureOps.Ideal.Laws

noncomputable section

namespace Cert.Ani

open Idealize.ShloMosaic Idealize.ShloMosaic.ValueIdx Cert.ReferenceIdeal Cert.ReferenceIdeal.ReadP

namespace RefSel

/-- A selection on the bit "s equals k" is the choice on the proposition s = k. -/
theorem select_cmpi_eq {α : Type} {w : Nat} (s k : BitVec w) (a b : α) :
    Scalar.select (IntOp.cmpi .eq s k) a b = if s = k then a else b := by
  show (if BitVec.ofBool (s == k) = 1#1 then a else b) = _
  by_cases h : s = k
  · rw [if_pos h, beq_iff_eq.mpr h]; exact if_pos rfl
  · rw [if_neg h, beq_eq_false_iff_ne.mpr h]; exact if_neg (by decide)

/-- Atom row R of the flattened species words is the word of atom R % 64 of molecule R / 64. -/
theorem species_row (x0 : (⟨S2048x64, .i32⟩ : BufTy).Contents (Elt Ideal)) (R : Fin 131072) :
    val_main_v0 (F := Ideal) x0 (ix1 R) = x0 (ix2 (mol R) (atm R)) := by
  rw [val_main_v0_apply]
  exact congrArg x0 (funext fun a => match a with | ⟨0, _⟩ => rfl | ⟨1, _⟩ => rfl)

/-- The broadcast zero is the number zero at every row. -/
theorem zeros_row (i : S131072.Idx) : val_main_v7 (F := Ideal) i = (0 : EReal) := by
  rw [val_main_v7_apply]
  show Ideal.ofBits .f32 0x00000000#32 = 0
  exact Ideal.ofBits_zero_f32

end RefSel

open RefSel

/-- After the eight selections, atom row R holds the output of the network its species word names, and zero when the
    word names none. -/
theorem sel_eq (x0 : (⟨S2048x64, .i32⟩ : BufTy).Contents (Elt Ideal)) (x1 : (⟨S2048x64x384, .f32⟩ : BufTy).Contents (Elt Ideal))
    (x2 : (⟨S384x64, .f32⟩ : BufTy).Contents (Elt Ideal)) (x3 : (⟨S64, .f32⟩ : BufTy).Contents (Elt Ideal))
    (x4 : (⟨S8x64x96, .f32⟩ : BufTy).Contents (Elt Ideal)) (x5 : (⟨S8x96, .f32⟩ : BufTy).Contents (Elt Ideal))
    (x6 : (⟨S8x96x1, .f32⟩ : BufTy).Contents (Elt Ideal)) (x7 : (⟨S8x1, .f32⟩ : BufTy).Contents (Elt Ideal))
    (h0 : ∀ R : Fin 131072, val_main_v25 (F := Ideal) x1 x2 x3 x4 x5 x6 x7 (ix1 R) = enR x1 x2 x3 x4 x5 x6 x7 R 0)
    (h1 : ∀ R : Fin 131072, val_main_v46 (F := Ideal) x1 x2 x3 x4 x5 x6 x7 (ix1 R) = enR x1 x2 x3 x4 x5 x6 x7 R 1)
    (h2 : ∀ R : Fin 131072, val_main_v67 (F := Ideal) x1 x2 x3 x4 x5 x6 x7 (ix1 R) = enR x1 x2 x3 x4 x5 x6 x7 R 2)
    (h3 : ∀ R : Fin 131072, val_main_v88 (F := Ideal) x1 x2 x3 x4 x5 x6 x7 (ix1 R) = enR x1 x2 x3 x4 x5 x6 x7 R 3)
    (h4 : ∀ R : Fin 131072, val_main_v109 (F := Ideal) x1 x2 x3 x4 x5 x6 x7 (ix1 R) = enR x1 x2 x3 x4 x5 x6 x7 R 4)
    (h5 : ∀ R : Fin 131072, val_main_v130 (F := Ideal) x1 x2 x3 x4 x5 x6 x7 (ix1 R) = enR x1 x2 x3 x4 x5 x6 x7 R 5)
    (h6 : ∀ R : Fin 131072, val_main_v151 (F := Ideal) x1 x2 x3 x4 x5 x6 x7 (ix1 R) = enR x1 x2 x3 x4 x5 x6 x7 R 6)
    (h7 : ∀ R : Fin 131072, val_main_v172 (F := Ideal) x1 x2 x3 x4 x5 x6 x7 (ix1 R) = enR x1 x2 x3 x4 x5 x6 x7 R 7)
    (R : Fin 131072) :
    val_main_v175 (F := Ideal) x0 x1 x2 x3 x4 x5 x6 x7 (ix1 R) = selR x0 x1 x2 x3 x4 x5 x6 x7 R := by
  rw [val_main_v175_apply, val_main_v174_apply, val_main_v173_apply, val_main_c_6_apply,
    val_main_v154_apply, val_main_v153_apply, val_main_v152_apply, val_main_c_5_apply,
    val_main_v133_apply, val_main_v132_apply, val_main_v131_apply, val_main_c_4_apply,
    val_main_v112_apply, val_main_v111_apply, val_main_v110_apply, val_main_c_3_apply,
    val_main_v91_apply, val_main_v90_apply, val_main_v89_apply, val_main_c_2_apply,
    val_main_v70_apply, val_main_v69_apply, val_main_v68_apply, val_main_c_1_apply,
    val_main_v49_apply, val_main_v48_apply, val_main_v47_apply, val_main_c_0_apply,
    val_main_v28_apply, val_main_v27_apply, val_main_v26_apply, val_main_c_apply,
    species_row, zeros_row, h0 R, h1 R, h2 R, h3 R, h4 R, h5 R, h6 R, h7 R]
  simp only [select_cmpi_eq]
  exact where_chain (fun e => enR x1 x2 x3 x4 x5 x6 x7 R e) (x0 (ix2 (mol R) (atm R)))

theorem ref_eq_of (x0 : (⟨S2048x64, .i32⟩ : BufTy).Contents (Elt Ideal)) (x1 : (⟨S2048x64x384, .f32⟩ : BufTy).Contents (Elt Ideal))
    (x2 : (⟨S384x64, .f32⟩ : BufTy).Contents (Elt Ideal)) (x3 : (⟨S64, .f32⟩ : BufTy).Contents (Elt Ideal))
    (x4 : (⟨S8x64x96, .f32⟩ : BufTy).Contents (Elt Ideal)) (x5 : (⟨S8x96, .f32⟩ : BufTy).Contents (Elt Ideal))
    (x6 : (⟨S8x96x1, .f32⟩ : BufTy).Contents (Elt Ideal)) (x7 : (⟨S8x1, .f32⟩ : BufTy).Contents (Elt Ideal))
    (h0 : ∀ R : Fin 131072, val_main_v25 (F := Ideal) x1 x2 x3 x4 x5 x6 x7 (ix1 R) = enR x1 x2 x3 x4 x5 x6 x7 R 0)
    (h1 : ∀ R : Fin 131072, val_main_v46 (F := Ideal) x1 x2 x3 x4 x5 x6 x7 (ix1 R) = enR x1 x2 x3 x4 x5 x6 x7 R 1)
    (h2 : ∀ R : Fin 131072, val_main_v67 (F := Ideal) x1 x2 x3 x4 x5 x6 x7 (ix1 R) = enR x1 x2 x3 x4 x5 x6 x7 R 2)
    (h3 : ∀ R : Fin 131072, val_main_v88 (F := Ideal) x1 x2 x3 x4 x5 x6 x7 (ix1 R) = enR x1 x2 x3 x4 x5 x6 x7 R 3)
    (h4 : ∀ R : Fin 131072, val_main_v109 (F := Ideal) x1 x2 x3 x4 x5 x6 x7 (ix1 R) = enR x1 x2 x3 x4 x5 x6 x7 R 4)
    (h5 : ∀ R : Fin 131072, val_main_v130 (F := Ideal) x1 x2 x3 x4 x5 x6 x7 (ix1 R) = enR x1 x2 x3 x4 x5 x6 x7 R 5)
    (h6 : ∀ R : Fin 131072, val_main_v151 (F := Ideal) x1 x2 x3 x4 x5 x6 x7 (ix1 R) = enR x1 x2 x3 x4 x5 x6 x7 R 6)
    (h7 : ∀ R : Fin 131072, val_main_v172 (F := Ideal) x1 x2 x3 x4 x5 x6 x7 (ix1 R) = enR x1 x2 x3 x4 x5 x6 x7 R 7) :
    val_main_v177 (F := Ideal) x0 x1 x2 x3 x4 x5 x6 x7 = G x0 x1 x2 x3 x4 x5 x6 x7 := by
  funext i
  rw [val_main_v177_apply, val_main_cst_7_apply]
  show Ideal.ofBits .f32 0x00000000#32 + _ = _
  rw [Ideal.ofBits_zero_f32, zero_add]
  unfold G
  refine Finset.sum_congr rfl fun a _ => ?_
  rw [val_main_v176_apply]
  have hi : idx_main_v176 (idx_main_v177 i a)
      = ix1 (⟨(i 0).val * 64 + a.val, by have h0 : (i 0).val < 2048 := (i 0).isLt; have := a.isLt; omega⟩ : Fin 131072) :=
    funext fun d => match d with | ⟨0, _⟩ => rfl
  rw [hi]
  exact sel_eq x0 x1 x2 x3 x4 x5 x6 x7 h0 h1 h2 h3 h4 h5 h6 h7 _

end Cert.Ani

end
-- ==== Proof.Bridge.lean ====
/-
  One tile's output is the whole-array function on the tile's 128 molecules.

  Tile T (0 ≤ T < 16) holds atom rows T · 8192 … T · 8192 + 8191. Given that the tile's operands are the pre-arranged
  forms of the arguments (the one-hot species matrix, the descriptor rows, the 8 first layers side by side, the 8 second
  layers block-diagonally), each layer of the tile computation is the corresponding layer of the whole-array function
  at the tile's row, the block-diagonal product keeps one network's 96 terms, the one-hot weighting picks the species'
  network, and the masked row sum is the molecule's sum.
-/
import proofs.«100109_g34385508172240_cont_8to1_b_268_15_alg».proof.Proof.Spec
import proofs.«100109_g34385508172240_cont_8to1_b_268_15_alg».proof.Proof.Algebra

noncomputable section

namespace Cert.Ani

open Idealize.ShloMosaic Idealize.ShloMosaic.ValueIdx

/-- Atom row of tile `T`'s row `r`. -/
abbrev trow (T : Fin 16) (r : Fin 8192) : Fin 131072 := ⟨T.val * 8192 + r.val, by have := T.isLt; have := r.isLt; omega⟩

section

variable (sp : IVec ⟨2, ![2048, 64]⟩ 32) (x : FVec Ideal ⟨3, ![2048, 64, 384]⟩ .f32)
  (ws : FVec Ideal ⟨2, ![384, 64]⟩ .f32) (bs : FVec Ideal ⟨1, ![64]⟩ .f32)
  (w1 : FVec Ideal ⟨3, ![8, 64, 96]⟩ .f32) (b1 : FVec Ideal ⟨2, ![8, 96]⟩ .f32)
  (w2 : FVec Ideal ⟨3, ![8, 96, 1]⟩ .f32) (b2 : FVec Ideal ⟨2, ![8, 1]⟩ .f32)
  (T : Fin 16)
  (oh : FVec Ideal ⟨2, ![8192, 8]⟩ .f32) (xr : FVec Ideal ⟨2, ![8192, 384]⟩ .f32)
  (bsv : FVec Ideal ⟨2, ![1, 64]⟩ .f32)
  (w1c : FVec Ideal ⟨2, ![64, 768]⟩ .f32) (b1c : FVec Ideal ⟨2, ![1, 768]⟩ .f32)
  (w2bd : FVec Ideal ⟨2, ![768, 8]⟩ .bf16) (b2v : FVec Ideal ⟨2, ![1, 8]⟩ .f32)
  (hoh : ∀ (r : Fin 8192) (e : Fin 8), oh (ix2 r e)
      = if sp (ix2 (mol (trow T r)) (atm (trow T r))) = BitVec.ofNat 32 e.val then (1 : EReal) else 0)
  (hxr : ∀ (r : Fin 8192) (d : Fin 384), xr (ix2 r d) = x (ix3 (mol (trow T r)) (atm (trow T r)) d))
  (hbsv : ∀ q : Fin 64, bsv (ix2 (0 : Fin 1) q) = bs (ix1 q))
  (hw1c : ∀ (q : Fin 64) (k : Fin 768), w1c (ix2 q k)
      = w1 (ix3 (⟨k.val / 96, by have := k.isLt; omega⟩ : Fin 8) q (⟨k.val % 96, by omega⟩ : Fin 96)))
  (hb1c : ∀ k : Fin 768, b1c (ix2 (0 : Fin 1) k)
      = b1 (ix2 (⟨k.val / 96, by have := k.isLt; omega⟩ : Fin 8) (⟨k.val % 96, by omega⟩ : Fin 96)))
  (hw2bd : ∀ (k : Fin 768) (e : Fin 8), w2bd (ix2 k e)
      = w2 (ix3 (⟨k.val / 96, by have := k.isLt; omega⟩ : Fin 8) (⟨k.val % 96, by omega⟩ : Fin 96) (0 : Fin 1))
          * (if k.val / 96 = e.val then (1 : EReal) else 0))
  (hb2v : ∀ e : Fin 8, b2v (ix2 (0 : Fin 1) e) = b2 (ix2 e (0 : Fin 1)))

include hxr hbsv in
/-- The shared layer on a tile row is the shared layer on its atom row. -/
theorem tl1_eq (r : Fin 8192) (q : Fin 64) : tl1 xr ws bsv r q = sharedR x ws bs (trow T r) q := by
  unfold tl1 sharedR
  rw [hbsv q]
  exact congrArg (fun s => celu (s + bs (ix1 q))) (Finset.sum_congr rfl fun d _ => by rw [hxr r d])

include hxr hbsv hw1c hb1c in
/-- Column k of the side-by-side first layers is hidden unit k % 96 of network k / 96. -/
theorem tl2_eq (r : Fin 8192) (k : Fin 768) :
    tl2 xr ws bsv w1c b1c r k
      = hidR x ws bs w1 b1 (trow T r) (⟨k.val / 96, by have := k.isLt; omega⟩ : Fin 8) (⟨k.val % 96, by omega⟩ : Fin 96) := by
  unfold tl2 hidR
  rw [hb1c k]
  refine congrArg (fun s => celu (s + _)) (Finset.sum_congr rfl fun q _ => ?_)
  rw [hw1c q k, tl1_eq x ws bs T xr bsv hxr hbsv r q]

include hxr hbsv hw1c hb1c hw2bd hb2v in
/-- The block-diagonal product's column e is network e's scalar output. -/
theorem tl3_eq (r : Fin 8192) (e : Fin 8) :
    tl3 xr ws bsv w1c b1c w2bd b2v r e = enR x ws bs w1 b1 w2 b2 (trow T r) e := by
  unfold tl3 enR
  rw [hb2v e]
  refine congrArg (fun s => s + b2 (ix2 e (0 : Fin 1))) ?_
  have h1 : (∑ k : Fin 768, tl2 xr ws bsv w1c b1c r k * w2bd (ix2 k e))
      = ∑ k : Fin 768, (fun k : Fin 768 => hidR x ws bs w1 b1 (trow T r) (⟨k.val / 96, by have := k.isLt; omega⟩ : Fin 8) (⟨k.val % 96, by omega⟩ : Fin 96)) k
          * ((fun (a : Fin 8) (j : Fin 96) => w2 (ix3 a j (0 : Fin 1))) ⟨k.val / 96, by have := k.isLt; omega⟩ ⟨k.val % 96, by omega⟩
              * (if k.val / 96 = e.val then (1 : EReal) else 0)) :=
    Finset.sum_congr rfl fun k _ => by
      rw [tl2_eq x ws bs w1 b1 T xr bsv w1c b1c hxr hbsv hw1c hb1c r k, hw2bd k e]
  rw [h1]
  refine (sum_blockdiag (fun k : Fin 768 => hidR x ws bs w1 b1 (trow T r) (⟨k.val / 96, by have := k.isLt; omega⟩ : Fin 8) (⟨k.val % 96, by omega⟩ : Fin 96))
    (fun (a : Fin 8) (j : Fin 96) => w2 (ix3 a j (0 : Fin 1))) e).trans ?_
  refine Finset.sum_congr rfl fun j _ => ?_
  have hj := j.isLt; have he := e.isLt
  have e1 : (⟨(e.val * 96 + j.val) / 96, by omega⟩ : Fin 8) = e := Fin.ext (by show (e.val * 96 + j.val) / 96 = e.val; omega)
  have e2 : (⟨(e.val * 96 + j.val) % 96, by omega⟩ : Fin 96) = j := Fin.ext (by show (e.val * 96 + j.val) % 96 = j.val; omega)
  show hidR x ws bs w1 b1 (trow T r) (⟨(e.val * 96 + j.val) / 96, _⟩ : Fin 8) (⟨(e.val * 96 + j.val) % 96, _⟩ : Fin 96) * w2 (ix3 e j (0 : Fin 1)) = _
  rw [e1, e2]

include hoh hxr hbsv hw1c hb1c hw2bd hb2v in
/-- The one-hot weighting picks the network the row's species word names. -/
theorem rowE_eq (r : Fin 8192) :
    rowE oh xr ws bsv w1c b1c w2bd b2v r = selR sp x ws bs w1 b1 w2 b2 (trow T r) := by
  unfold rowE selR
  rw [← sum_onehot]
  refine Finset.sum_congr rfl fun e _ => ?_
  rw [tl3_eq x ws bs w1 b1 w2 b2 T xr bsv w1c b1c w2bd b2v hxr hbsv hw1c hb1c hw2bd hb2v r e, hoh r e]

include hoh hxr hbsv hw1c hb1c hw2bd hb2v in
/-- THE TILE IS THE WHOLE-ARRAY FUNCTION on its 128 molecules. -/
theorem tile_eq_G (mm : Fin 128) :
    tileOut oh xr ws bsv w1c b1c w2bd b2v mm
      = G sp x ws bs w1 b1 w2 b2 (ix1 (⟨T.val * 128 + mm.val, by have := T.isLt; have := mm.isLt; omega⟩ : Fin 2048)) := by
  unfold tileOut G
  rw [sum_mask]
  refine Finset.sum_congr rfl fun a _ => ?_
  rw [rowE_eq sp x ws bs w1 b1 w2 b2 T oh xr bsv w1c b1c w2bd b2v hoh hxr hbsv hw1c hb1c hw2bd hb2v]
  refine congrArg (selR sp x ws bs w1 b1 w2 b2) (Fin.ext ?_)
  have := T.isLt; have := mm.isLt; have := a.isLt
  show T.val * 8192 + (mm.val * 64 + a.val) = (T.val * 128 + mm.val) * 64 + a.val
  omega

end

end Cert.Ani

end
-- ==== Proof.LibColumnMatmul.lean ====
/-
  Two reads at an index given by coordinates.

  * A column [a, 1] broadcast along its unit axis to [a, b]: entry (p, c) of the result is entry (p, 0) of the column.
  * A matrix product into a zero accumulator whose dimension numbers contract ONE axis of extent n: entry j of the
    result is Σ_{k < n} lhs(L k) · rhs(R k), where L k and R k are the operand indices the dimension numbers assign to
    output index j and contraction coordinate k (the caller names them and shows that they are).
-/
import Idealize.ShloMosaic.Lib.ValueLayout
import Idealize.ShloMosaic.Lib.ValueIdx
import Idealize.ShloMosaic.PureOps.Ideal.Laws

noncomputable section

namespace Cert.LibColumnMatmul

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into the zero accumulator, one contracted axis of extent `n`: the sum over that axis of the operands'
    entries at the indices `L k`, `R k` the dimension numbers give. -/
theorem matmul_zero_single {sl sr so : Shape} {φ₁ φ₂ : FTy} (D : DotDims sl sr so) (prec : Option ContractPrecision) (n : ℕ)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k : Fin n, D.lhsIdx j ((contrEquiv1 D n hr hs).symm k) = L k)
    (hR : ∀ k : Fin n, D.rhsIdx j ((contrEquiv1 D n hr hs).symm k) = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL k, hR k]

end Cert.LibColumnMatmul

end
-- ==== Proof.Payload.lean ====
/-
  The kernel body's stored value, read at an index, over the extended reals.

  The body computes, on a tile of 8192 atom rows: three matrix products into zero accumulators, the first two followed by
  a bias row and celu, the third by a bias row; the product with the one-hot species block and the sum over its 8 columns
  (the row's energy); then the sum over the tile's rows of the row energies masked by "row r belongs to molecule c",
  the mask computed on 32-bit words as the floor quotient of the row number by 64 compared with the column number.
  Each operation that is not elementwise is read at an index by one small lemma; the mask is shown to be the bit of
  `r / 64 = c`; the assembly matches the tile spelling of the mathematics term by term.
-/
import proofs.«100109_g34385508172240_cont_8to1_b_268_15_alg».proof.Proof.Spec
import proofs.«100109_g34385508172240_cont_8to1_b_268_15_alg».proof.Proof.Gen.KernelIdeal.Skeleton
import proofs.«100109_g34385508172240_cont_8to1_b_268_15_alg».proof.Proof.LibColumnMatmul
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WordArith

noncomputable section

namespace Cert.Ani

open Idealize.ShloMosaic Idealize.ShloMosaic.ValueIdx Cert.KernelIdeal Cert.KernelIdeal.Gen

/-- The f32 word of 1.0 is the extended real 1. -/
theorem ofBits_one_word : Ideal.ofBits .f32 0x3F800000#32 = 1 := IdealRules.sign_bit.ideal_onePat .f32

/-- The sign word of the divisor 64 (the bit of `64 > 0` less the bit of `64 < 0`, both widened) is one. -/
theorem v59_eq : Scalar.subi (Scalar.extui (Scalar.cmpi .sgt 64#32 0#32)) (Scalar.extui (Scalar.cmpi .slt 64#32 0#32)) = 1#32 := by decide

/-- A number below 8192, as a 32-bit word, has its top bit clear. -/
theorem msb_small (r : ℕ) (hr : r < 8192) : (BitVec.ofNat 32 r).msb = false := by
  rw [BitVec.msb_eq_decide]
  simp only [BitVec.toNat_ofNat, decide_eq_false_iff_not, not_le]
  omega

/-- The signed quotient by 64 of a number below 8192, as 32-bit words, is the natural quotient. -/
theorem divsi64 (r : ℕ) (hr : r < 8192) : IntOp.divsi .vector (BitVec.ofNat 32 r) 64#32 = BitVec.ofNat 32 (r / 64) := by
  unfold IntOp.divsi
  rw [if_neg (by simp [IntOp.SDivCorner])]
  rw [BitVec.sdiv_eq, msb_small r hr, show (64#32 : BitVec 32).msb = false by decide]
  apply BitVec.eq_of_toNat_eq
  simp only [BitVec.udiv_eq, BitVec.toNat_udiv, BitVec.toNat_ofNat]
  rw [Nat.mod_eq_of_lt (by omega : r < 2 ^ 32), Nat.mod_eq_of_lt (by omega : r / 64 < 2 ^ 32)]

/-- A positive row number below 8192 has sign word 1, so the "signs differ" bit is 0. -/
theorem sign_pos (r : ℕ) (hr : r < 8192) (h0 : 0 < r) :
    IntOp.cmpi .ne (IntOp.subi ((IntOp.cmpi .sgt (BitVec.ofNat 32 r) 0#32).setWidth 32) ((IntOp.cmpi .slt (BitVec.ofNat 32 r) 0#32).setWidth 32)) 1#32 = 0#1 := by
  have hi : (BitVec.ofNat 32 r).toInt = r := WordArith.toInt_ofNat_small r (by omega)
  have h1 : IntOp.cmpi .sgt (BitVec.ofNat 32 r) 0#32 = 1#1 := by
    unfold IntOp.cmpi
    show BitVec.ofBool ((0#32 : BitVec 32).slt (BitVec.ofNat 32 r)) = 1#1
    rw [WordArith.ofBool_eq_one_iff, BitVec.slt_iff_toInt_lt, hi]
    simpa using h0
  have h2 : IntOp.cmpi .slt (BitVec.ofNat 32 r) 0#32 = 0#1 := by
    unfold IntOp.cmpi
    show BitVec.ofBool ((BitVec.ofNat 32 r).slt 0#32) = 0#1
    have : (BitVec.ofNat 32 r).slt 0#32 = false := by
      rw [Bool.eq_false_iff]; intro h
      rw [BitVec.slt_iff_toInt_lt, hi] at h
      simp at h
      omega
    rw [this]; rfl
  rw [h1, h2]
  decide

/-- Floor division of a row number below 8192 by 64, spelt with truncating division (the truncated quotient, less one when the signs
    differ and the remainder is not zero), is the natural quotient. -/
theorem floordiv64 (r : ℕ) (hr : r < 8192) :
    Scalar.select (IntOp.andi (IntOp.cmpi .ne (IntOp.subi ((IntOp.cmpi .sgt (BitVec.ofNat 32 r) 0#32).setWidth 32) ((IntOp.cmpi .slt (BitVec.ofNat 32 r) 0#32).setWidth 32)) 1#32)
        (IntOp.cmpi .ne (IntOp.remsi .vector (BitVec.ofNat 32 r) 64#32) 0#32))
      (IntOp.subi (IntOp.divsi .vector (BitVec.ofNat 32 r) 64#32) 1#32) (IntOp.divsi .vector (BitVec.ofNat 32 r) 64#32)
      = BitVec.ofNat 32 (r / 64) := by
  rcases Nat.eq_zero_or_pos r with h0 | h0
  · subst h0; decide
  · rw [sign_pos r hr h0, divsi64 r hr]
    unfold IntOp.andi
    rw [BitVec.zero_and]
    exact select_zero _ _

/-- The mask bit: the floor quotient of row `r` by 64 equals column `c` exactly when `r / 64 = c`. -/
theorem eq_word (r c : ℕ) (hr : r < 8192) (hc : c < 128) :
    IntOp.cmpi .eq (BitVec.ofNat 32 (r / 64)) (BitVec.ofNat 32 c) = if r / 64 = c then 1#1 else 0#1 := by
  unfold IntOp.cmpi
  show BitVec.ofBool (BitVec.ofNat 32 (r / 64) == BitVec.ofNat 32 c) = _
  by_cases h : r / 64 = c
  · rw [if_pos h, h]; simp
  · rw [if_neg h]
    have : (BitVec.ofNat 32 (r / 64) == BitVec.ofNat 32 c) = false := by
      rw [beq_eq_false_iff_ne]
      intro he
      have := congrArg BitVec.toNat he
      simp only [BitVec.toNat_ofNat] at this
      rw [Nat.mod_eq_of_lt (by omega : r / 64 < 2 ^ 32), Nat.mod_eq_of_lt (by omega : c < 2 ^ 32)] at this
      exact h this
    rw [this]; rfl

/-! ## The non-pointwise operations, each read at an index -/

/-- A product into the zero accumulator with dimension numbers "rows × contraction times contraction × columns": entry
    `(r, q)` is the sum over the contracted coordinate of the products of the entries. -/
theorem matmul_plain_apply {a n b : ℕ} {φ₁ φ₂ : FTy} (D : DotDims ⟨2, ![a, n]⟩ ⟨2, ![n, b]⟩ ⟨2, ![a, b]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (X : FVec Ideal ⟨2, ![a, n]⟩ φ₁) (W : FVec Ideal ⟨2, ![n, b]⟩ φ₂) (r : Fin a) (q : Fin b) :
    FloatOps.matmul D prec X W (constant ⟨2, ![a, b]⟩ .f32 0x00000000#32) (ix2 r q) = ∑ k : Fin n, X (ix2 r k) * W (ix2 k q) := by
  obtain ⟨lc, rc, ln, rn, lb, rb, wf⟩ := D
  simp only at h1 h2 h3 h4 h5 h6
  subst h1 h2 h3 h4 h5 h6
  rw [Ideal.matmul_constant_zero_apply, ← Equiv.sum_comp (contrEquiv1 _ n rfl rfl).symm]
  refine Finset.sum_congr rfl fun k _ => ?_
  have hk := contrEquiv1_symm_val (⟨[1], [0], [0], [1], [], [], wf⟩ : DotDims ⟨2, ![a, n]⟩ ⟨2, ![n, b]⟩ ⟨2, ![a, b]⟩) n rfl rfl k
  have el : (⟨[1], [0], [0], [1], [], [], wf⟩ : DotDims ⟨2, ![a, n]⟩ ⟨2, ![n, b]⟩ ⟨2, ![a, b]⟩).lhsIdx (ix2 r q)
      ((contrEquiv1 _ n rfl rfl).symm k) = ix2 r k := funext fun ax => Fin.ext (by
    match ax with
    | ⟨0, _⟩ =>
      simp [DotDims.lhsIdx]; rfl
    | ⟨1, _⟩ => exact (DotDims.lhsIdx_val_of_single _ rfl _ _).trans hk)
  have er : (⟨[1], [0], [0], [1], [], [], wf⟩ : DotDims ⟨2, ![a, n]⟩ ⟨2, ![n, b]⟩ ⟨2, ![a, b]⟩).rhsIdx (ix2 r q)
      ((contrEquiv1 _ n rfl rfl).symm k) = ix2 k q := funext fun ax => Fin.ext (by
    match ax with
    | ⟨0, _⟩ => exact (DotDims.rhsIdx_val_of_single _ rfl _ _).trans hk
    | ⟨1, _⟩ =>
      simp [DotDims.rhsIdx]; rfl)
  rw [el, er]

/-- The sum along the 8 columns of an `[8192, 8]` array, at row `r`. -/
theorem rowsum_apply (src : FVec Ideal ⟨2, ![8192, 8]⟩ .f32) (h : Shape.Reduces ⟨2, ![8192, 8]⟩ [1] ⟨1, ![8192]⟩)
    (hφ : FKind.Formats .f32) (hacc : (0x00000000#32 : BitVec 32) = FKind.add.neutral .f32 hφ) (r : Fin 8192) :
    multiReduction .add [1] ⟨1, ![8192]⟩ src 0x00000000#32 h hφ hacc (ix1 r) = ∑ e : Fin 8, src (ix2 r e) := by
  refine (Ideal.multiReduction_add_single src _ h hφ hacc (ix1 r)).trans ?_
  refine Finset.sum_congr rfl fun e _ => congrArg src ?_
  funext c
  apply Fin.ext
  match c with
  | ⟨0, _⟩ => rfl
  | ⟨1, _⟩ => rfl

/-- The sum along the 8192 rows of an `[8192, 128]` array, at column `c`. -/
theorem colsum_apply (src : FVec Ideal ⟨2, ![8192, 128]⟩ .f32) (h : Shape.Reduces ⟨2, ![8192, 128]⟩ [0] ⟨1, ![128]⟩)
    (hφ : FKind.Formats .f32) (hacc : (0x00000000#32 : BitVec 32) = FKind.add.neutral .f32 hφ) (c : Fin 128) :
    multiReduction .add [0] ⟨1, ![128]⟩ src 0x00000000#32 h hφ hacc (ix1 c) = ∑ r : Fin 8192, src (ix2 r c) := by
  refine (Ideal.multiReduction_add_single src _ h hφ hacc (ix1 c)).trans ?_
  refine Finset.sum_congr rfl fun r _ => congrArg src ?_
  funext d
  apply Fin.ext
  match d with
  | ⟨0, _⟩ => rfl
  | ⟨1, _⟩ => rfl

/-- A vector `[a]` viewed as a column `[a, 1]` reads, at `(p, z)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- The row-number word of an `[8192, 128]` array at `(r, c)` is `r`. -/
theorem iota0_apply (h : (⟨2, ![8192, 128]⟩ : Shape).Iotas .tc 32 [0]) (r : Fin 8192) (c : Fin 128) :
    iota .tc ⟨2, ![8192, 128]⟩ 32 [0] h (ix2 r c) = BitVec.ofNat 32 r.val := by
  show BitVec.ofNat 32 (0 * 8192 + r.val) = _
  rw [Nat.zero_mul, Nat.zero_add]

/-- The column-number word of an `[8192, 128]` array at `(r, c)` is `c`. -/
theorem iota1_apply (h : (⟨2, ![8192, 128]⟩ : Shape).Iotas .tc 32 [1]) (r : Fin 8192) (c : Fin 128) :
    iota .tc ⟨2, ![8192, 128]⟩ 32 [1] h (ix2 r c) = BitVec.ofNat 32 c.val := by
  show BitVec.ofNat 32 (0 * 128 + c.val) = _
  rw [Nat.zero_mul, Nat.zero_add]

/-- The mask of the masked row sum, at `(r, c)`: the bit of "row `r` belongs to molecule `c`", `r / 64 = c`. -/
theorem mask_apply (h0 : (⟨2, ![8192, 128]⟩ : Shape).Iotas .tc 32 [0]) (h1 : (⟨2, ![8192, 128]⟩ : Shape).Iotas .tc 32 [1])
    (hlt : 1 < 32) (r : Fin 8192) (c : Fin 128) :
    cmpi .eq
      (select
        (andi
          (cmpi .ne
            (subi (extui 32 (cmpi .sgt (iota .tc ⟨2, ![8192, 128]⟩ 32 [0] h0) (broadcast ⟨2, ![8192, 128]⟩ 0#32)) hlt)
              (extui 32 (cmpi .slt (iota .tc ⟨2, ![8192, 128]⟩ 32 [0] h0) (broadcast ⟨2, ![8192, 128]⟩ 0#32)) hlt))
            (broadcast ⟨2, ![8192, 128]⟩
              (Scalar.subi (Scalar.extui (Scalar.cmpi .sgt 64#32 0#32)) (Scalar.extui (Scalar.cmpi .slt 64#32 0#32)))))
          (cmpi .ne (remsi (iota .tc ⟨2, ![8192, 128]⟩ 32 [0] h0) (broadcast ⟨2, ![8192, 128]⟩ 64#32))
            (broadcast ⟨2, ![8192, 128]⟩ 0#32)))
        (subi (divsi (iota .tc ⟨2, ![8192, 128]⟩ 32 [0] h0) (broadcast ⟨2, ![8192, 128]⟩ 64#32))
          (broadcast ⟨2, ![8192, 128]⟩ 1#32))
        (divsi (iota .tc ⟨2, ![8192, 128]⟩ 32 [0] h0) (broadcast ⟨2, ![8192, 128]⟩ 64#32)))
      (iota .tc ⟨2, ![8192, 128]⟩ 32 [1] h1) (ix2 r c)
      = if r.val / 64 = c.val then 1#1 else 0#1 := by
  show IntOp.cmpi .eq
      (Scalar.select
        (IntOp.andi
          (IntOp.cmpi .ne
            (IntOp.subi ((IntOp.cmpi .sgt (iota .tc ⟨2, ![8192, 128]⟩ 32 [0] h0 (ix2 r c)) 0#32).setWidth 32)
              ((IntOp.cmpi .slt (iota .tc ⟨2, ![8192, 128]⟩ 32 [0] h0 (ix2 r c)) 0#32).setWidth 32))
            (Scalar.subi (Scalar.extui (Scalar.cmpi .sgt 64#32 0#32)) (Scalar.extui (Scalar.cmpi .slt 64#32 0#32))))
          (IntOp.cmpi .ne (IntOp.remsi .vector (iota .tc ⟨2, ![8192, 128]⟩ 32 [0] h0 (ix2 r c)) 64#32) 0#32))
        (IntOp.subi (IntOp.divsi .vector (iota .tc ⟨2, ![8192, 128]⟩ 32 [0] h0 (ix2 r c)) 64#32) 1#32)
        (IntOp.divsi .vector (iota .tc ⟨2, ![8192, 128]⟩ 32 [0] h0 (ix2 r c)) 64#32))
      (iota .tc ⟨2, ![8192, 128]⟩ 32 [1] h1 (ix2 r c)) = _
  rw [iota0_apply, iota1_apply, v59_eq, floordiv64 r.val r.isLt]
  exact eq_word r.val c.val r.isLt c.isLt

/-! ## The three layers -/

/-- An affine layer followed by celu, as the kernel spells it (product into a zero accumulator, bias row repeated over
    the rows, `max (y, exp (min (y, 0)) − 1)`), read at `(r, q)`. -/
theorem layer_apply {a n b : ℕ} (D : DotDims ⟨2, ![a, n]⟩ ⟨2, ![n, b]⟩ ⟨2, ![a, b]⟩)
    (h1 : D.lhsContracting = [1]) (h2 : D.rhsContracting = [0]) (h3 : D.lhsNonContracting = [0])
    (h4 : D.rhsNonContracting = [1]) (h5 : D.lhsBatch = []) (h6 : D.rhsBatch = [])
    (X : FVec Ideal ⟨2, ![a, n]⟩ .bf16) (W : FVec Ideal ⟨2, ![n, b]⟩ .bf16) (bias : FVec Ideal ⟨2, ![1, b]⟩ .f32)
    (hb : (⟨2, ![1, b]⟩ : Shape).Broadcasts ⟨2, ![a, b]⟩) (r : Fin a) (q : Fin b) :
    maximumf
        (addf (matmul D none X W (constant (F := Ideal) ⟨2, ![a, b]⟩ .f32 0x00000000#32)) (broadcastTo ⟨2, ![a, b]⟩ bias hb))
        (subf
          (exp (minimumf
            (addf (matmul D none X W (constant (F := Ideal) ⟨2, ![a, b]⟩ .f32 0x00000000#32)) (broadcastTo ⟨2, ![a, b]⟩ bias hb))
            (broadcast ⟨2, ![a, b]⟩ (Scalar.ofBits (F := Ideal) .f32 0x00000000#32))))
          (broadcast ⟨2, ![a, b]⟩ (Scalar.ofBits (F := Ideal) .f32 0x3F800000#32))) (ix2 r q)
      = celu ((∑ k : Fin n, X (ix2 r k) * W (ix2 k q)) + bias (ix2 (0 : Fin 1) q)) := by
  have hy : addf (matmul D none X W (constant (F := Ideal) ⟨2, ![a, b]⟩ .f32 0x00000000#32)) (broadcastTo ⟨2, ![a, b]⟩ bias hb) (ix2 r q)
      = (∑ k : Fin n, X (ix2 r k) * W (ix2 k q)) + bias (ix2 (0 : Fin 1) q) := by
    rw [addf_apply, broadcastTo_1b_ab_apply]
    exact congrArg (· + bias (ix2 (0 : Fin 1) q)) (matmul_plain_apply D h1 h2 h3 h4 h5 h6 none X W r q)
  generalize addf (matmul D none X W (constant (F := Ideal) ⟨2, ![a, b]⟩ .f32 0x00000000#32)) (broadcastTo ⟨2, ![a, b]⟩ bias hb) = Y at hy ⊢
  show max (Y (ix2 r q) : EReal) (Ideal.exp (min (Y (ix2 r q) : EReal) (Ideal.ofBits .f32 0x00000000#32)) - Ideal.ofBits .f32 0x3F800000#32) = _
  rw [hy, Ideal.ofBits_zero_f32, ofBits_one_word]
  rfl

/-- The third product of the body, before its bias: entry `(r, e)` is the sum over the 768 hidden columns of the second
    layer's output times the block-diagonal second-layer matrix. -/
theorem pay2_apply (xr : FVec Ideal S8192x384 .f32) (ws : FVec Ideal S384x64 .f32) (bsv : FVec Ideal S1x64 .f32)
    (w1c : FVec Ideal S64x768 .f32) (b1c : FVec Ideal S1x768 .f32) (w2bd : FVec Ideal S768x8 .bf16)
    (r : Fin 8192) (e : Fin 8) :
    k0_pay2 (F := Ideal) xr ws bsv w1c b1c w2bd (ix2 r e) = ∑ k : Fin 768, tl2 xr ws bsv w1c b1c r k * w2bd (ix2 k e) := by
  unfold k0_pay2
  simp only [shapeCast_self]
  refine (matmul_plain_apply dot_S8192x768_S768x8_S8192x8_1_0_0_1_n_n rfl rfl rfl rfl rfl rfl none _ _ r e).trans ?_
  refine Finset.sum_congr rfl fun k _ => ?_
  refine congrArg (· * w2bd (ix2 k e)) ?_
  refine (truncf_apply (φ := .f32) (ψ := .bf16) _ _ _).trans ?_
  refine (layer_apply dot_S8192x64_S64x768_S8192x768_1_0_0_1_n_n rfl rfl rfl rfl rfl rfl _ _ _ _ r k).trans ?_
  unfold tl2
  refine congrArg (fun t => celu (t + b1c (ix2 (0 : Fin 1) k))) ?_
  refine Finset.sum_congr rfl fun q _ => ?_
  refine congrArg (· * w1c (ix2 q k)) ?_
  refine (truncf_apply (φ := .f32) (ψ := .bf16) _ _ _).trans ?_
  refine (layer_apply dot_S8192x384_S384x64_S8192x64_1_0_0_1_n_n rfl rfl rfl rfl rfl rfl _ _ _ _ r q).trans ?_
  rfl

/-- The third layer's bias row repeated over the tile's rows, at `(r, e)`. -/
theorem pay3_apply (b2v : FVec Ideal S1x8 .f32) (r : Fin 8192) (e : Fin 8) :
    k0_pay3 (F := Ideal) b2v (ix2 r e) = b2v (ix2 (0 : Fin 1) e) := by
  unfold k0_pay3
  simp only [shapeCast_self]
  exact broadcastTo_1b_ab_apply _ _ r e

/-- The tail of the body over any two `[8192, 8]` summands `A`, `B` and the one-hot block: entry `mm` of the stored row
    is the sum over the tile's rows with `r / 64 = mm` of `∑ e, (A (r, e) + B (r, e)) · oh (r, e)`. -/
theorem pay1_apply (A B oh : FVec Ideal S8192x8 .f32) (mm : Fin 128) :
    k0_pay1 (F := Ideal) A B oh (ix3 (0 : Fin 1) (0 : Fin 1) mm)
      = ∑ r : Fin 8192, if r.val / 64 = mm.val then ∑ e : Fin 8, (A (ix2 r e) + B (ix2 r e)) * oh (ix2 r e) else 0 := by
  unfold k0_pay1
  simp only [shapeCast_self]
  refine (shapeCast_ab_1ab_apply _ _ _ _ _).trans ?_
  refine (shapeCast_a_1a_apply _ _ _ _).trans ?_
  refine (colsum_apply _ _ _ _ mm).trans ?_
  refine Finset.sum_congr rfl fun r _ => ?_
  refine (select_apply _ _ _ _).trans ?_
  refine (congrArg (fun b => Scalar.select b _ _) (mask_apply _ _ _ r mm)).trans ?_
  by_cases h : r.val / 64 = mm.val
  · rw [if_pos h, if_pos h, select_one]
    refine (Cert.LibColumnMatmul.broadcastTo_a1_ab_apply _ _ r mm).trans ?_
    refine (shapeCast_a_a1_apply _ _ r _).trans ?_
    exact rowsum_apply _ _ _ _ r
  · rw [if_neg h, if_neg h, select_zero]
    exact Ideal.ofBits_zero_f32

/-- THE STORED VALUE AT AN INDEX: entry `mm` of the row the body stores is the tile spelling's molecule energy. -/
theorem payload_apply (oh : Vec Ideal S8192x8 .f32) (xr : Vec Ideal S8192x384 .f32) (ws : Vec Ideal S384x64 .f32)
    (bsv : Vec Ideal S1x64 .f32) (w1c : Vec Ideal S64x768 .f32) (b1c : Vec Ideal S1x768 .f32)
    (w2bd : Vec Ideal S768x8 .bf16) (b2v : Vec Ideal S1x8 .f32) (mm : Fin 128) :
    k0_pay1 (F := Ideal) (k0_pay2 xr ws bsv w1c b1c w2bd) (k0_pay3 b2v) oh (ix3 (0 : Fin 1) (0 : Fin 1) mm)
      = tileOut oh xr ws bsv w1c b1c w2bd b2v mm := by
  refine (pay1_apply _ _ oh mm).trans ?_
  unfold tileOut rowE tl3
  refine Finset.sum_congr rfl fun r _ => ?_
  refine congrArg (fun t => if r.val / 64 = mm.val then t else 0) ?_
  refine Finset.sum_congr rfl fun e _ => ?_
  rw [pay2_apply, pay3_apply]

end Cert.Ani

end
-- ==== Proof.HostPrefix.lean ====
/-
  WHAT THE HOST OPERATIONS BEFORE THE REGION HAND TO IT, READ AT AN INDEX.
  Before its one region the program rearranges its arguments: the descriptors `[2048, 64, 384]` become atom rows
  `[131072, 384]`; the species words become a one-hot matrix `[131072, 8]` (the words as a column compared with the row
  `0 … 7`); the 8 first layers `[8, 64, 96]` are laid side by side as `[64, 768]` (axes swapped, then merged) and their
  biases `[8, 96]` as one row; the 8 second layers `[8, 96, 1]` are multiplied by the rows of the 8 × 8 identity and merged
  into a block-diagonal `[768, 8]` matrix; the remaining biases become rows. Each theorem reads one of these arrays at an
  index written by its coordinates, as an argument array at the index the layout operations name. Over the extended reals
  every format change is the identity, and the comparison bit converted to a number is 1 or 0.
-/
import proofs.«100109_g34385508172240_cont_8to1_b_268_15_alg».proof.Proof.Spec
import proofs.«100109_g34385508172240_cont_8to1_b_268_15_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.Ani

open Idealize.ShloMosaic Idealize.ShloMosaic.TcCoe Idealize.ShloMosaic.ValueIdx Idealize.SL.Sem Cert.KernelIdeal Cert.KernelIdeal.Gen

namespace HostPrefix

/-! ## Reshapes read at an index given by coordinates -/

section Layout

variable {α : Type}

/-- `[2048, 64, 384]` with its two leading axes merged reads, at `(R, d)`, the operand at `(R / 64, R % 64, d)`. -/
theorem reshape_rows (x : S2048x64x384.Idx → α) (h : S2048x64x384.ShapeCasts S131072x384) (R : Fin 131072) (d : Fin 384) :
    shapeCast S131072x384 x h (ix2 R d) = x (ix3 (mol R) (atm R) d) :=
  shapeCast_apply x h _ _ (by
    rw [Shape.rowMajor_val_three, Shape.rowMajor_val_two]
    show (R.val / 64 * 64 + R.val % 64) * 384 + d.val = R.val * 384 + d.val
    omega)

/-- `[2048, 64]` flattened to a column `[131072, 1]` reads, at `(R, 0)`, the operand at `(R / 64, R % 64)`. -/
theorem reshape_col (x : S2048x64.Idx → α) (h : S2048x64.ShapeCasts S131072x1) (R : Fin 131072) :
    shapeCast S131072x1 x h (ix2 R (0 : Fin 1)) = x (ix2 (mol R) (atm R)) :=
  shapeCast_apply x h _ _ (by
    rw [Shape.rowMajor_val_two, Shape.rowMajor_val_two]
    show R.val / 64 * 64 + R.val % 64 = R.val * 1 + 0
    omega)

/-- A vector `[64]` viewed as a row `[1, 64]` reads, at `(0, q)`, the vector at `q`. -/
theorem reshape_row64 (x : S64.Idx → α) (h : S64.ShapeCasts S1x64) (q : Fin 64) :
    shapeCast S1x64 x h (ix2 (0 : Fin 1) q) = x (ix1 q) :=
  shapeCast_apply x h _ _ (by
    rw [Shape.rowMajor_val_one, Shape.rowMajor_val_two]
    show q.val = 0 * 64 + q.val
    omega)

/-- `[8, 96]` flattened to a row `[1, 768]` reads, at `(0, k)`, the operand at `(k / 96, k % 96)`. -/
theorem reshape_row768 (x : S8x96.Idx → α) (h : S8x96.ShapeCasts S1x768) (k : Fin 768) :
    shapeCast S1x768 x h (ix2 (0 : Fin 1) k)
      = x (ix2 (⟨k.val / 96, by have := k.isLt; omega⟩ : Fin 8) (⟨k.val % 96, by omega⟩ : Fin 96)) :=
  shapeCast_apply x h _ _ (by
    rw [Shape.rowMajor_val_two, Shape.rowMajor_val_two]
    show k.val / 96 * 96 + k.val % 96 = 0 * 768 + k.val
    omega)

/-- A column `[8, 1]` viewed as a row `[1, 8]` reads, at `(0, e)`, the column at `(e, 0)`. -/
theorem reshape_row8 (x : S8x1.Idx → α) (h : S8x1.ShapeCasts S1x8) (e : Fin 8) :
    shapeCast S1x8 x h (ix2 (0 : Fin 1) e) = x (ix2 e (0 : Fin 1)) :=
  shapeCast_apply x h _ _ (by
    rw [Shape.rowMajor_val_two, Shape.rowMajor_val_two]
    show e.val * 1 + 0 = 0 * 8 + e.val
    omega)

end Layout
/-! ## The first layers side by side -/

section Layout2

variable {α : Type}

/-- `[8, 64, 96]` with its first two axes swapped and then its last two axes merged, `[64, 768]`, reads, at `(q, k)`,
    the operand at `(k / 96, q, k % 96)`. -/
theorem reshape_transpose_w1 (x : S8x64x96.Idx → α) (ht : S8x64x96.Transposes [1, 0, 2] S64x8x96)
    (hs : S64x8x96.ShapeCasts S64x768) (q : Fin 64) (k : Fin 768) :
    shapeCast S64x768 (transpose S64x8x96 [1, 0, 2] x ht) hs (ix2 q k)
      = x (ix3 (⟨k.val / 96, by have := k.isLt; omega⟩ : Fin 8) q (⟨k.val % 96, by omega⟩ : Fin 96)) := by
  refine (shapeCast_apply (transpose S64x8x96 [1, 0, 2] x ht) hs (ix2 q k)
    (ix3 q (⟨k.val / 96, by have := k.isLt; omega⟩ : Fin 8) (⟨k.val % 96, by omega⟩ : Fin 96)) ?_).trans ?_
  · rw [Shape.rowMajor_val_three, Shape.rowMajor_val_two]
    show (q.val * 8 + k.val / 96) * 96 + k.val % 96 = q.val * 768 + k.val
    omega
  · exact transpose_apply _ x ht _ _ fun b => match b with | ⟨0, _⟩ => rfl | ⟨1, _⟩ => rfl | ⟨2, _⟩ => rfl

end Layout2

/-! ## A one-bit comparison converted to a number -/

/-- The word comparing two integers for equality, read as an unsigned number: 1 when they are equal, 0 otherwise. -/
theorem eqBit_toReal {w : Nat} (x y : BitVec w) :
    (FloatOps.uitofp (F := Ideal) .f32 (IntOp.cmpi .eq x y) : EReal) = if x = y then (1 : EReal) else 0 := by
  show (((BitVec.ofBool (x == y)).toNat : ℝ) : EReal) = _
  by_cases h : x = y
  · rw [if_pos h, beq_iff_eq.mpr h]
    show (((1 : ℕ) : ℝ) : EReal) = 1
    rw [Nat.cast_one, EReal.coe_one]
  · rw [if_neg h, beq_eq_false_iff_ne.mpr h]
    show (((0 : ℕ) : ℝ) : EReal) = 0
    rw [Nat.cast_zero, EReal.coe_zero]

/-- Two coordinates below 8 name the same 32-bit word exactly when they are equal. -/
theorem ofNat32_inj_lt8 (a e : Fin 8) : BitVec.ofNat 32 a.val = BitVec.ofNat 32 e.val ↔ a.val = e.val := by
  constructor
  · intro h
    have := congrArg BitVec.toNat h
    rw [BitVec.toNat_ofNat, BitVec.toNat_ofNat] at this
    have ha := a.isLt; have he := e.isLt
    omega
  · intro h; rw [h]

/-! ## The one-hot species matrix -/

section Layout3

variable {α : Type}

/-- A column `[131072, 1]` repeated along its unit axis to `[131072, 8]` reads, at `(R, e)`, the column at `(R, 0)`. -/
theorem bcast_col (h : S131072x1.BroadcastsInDim S131072x8 ![0, 1]) (x : S131072x1.Idx → α) (R : Fin 131072) (e : Fin 8) :
    broadcastInDim S131072x8 ![0, 1] h x (ix2 R e) = x (ix2 R (0 : Fin 1)) :=
  broadcastInDim_apply _ h x _ _ fun a => match a with | ⟨0, _⟩ => rfl | ⟨1, _⟩ => rfl

/-- A row `[1, 8]` repeated along its unit axis to `[131072, 8]` reads, at `(R, e)`, the row at `(0, e)`. -/
theorem bcast_row (h : S1x8.BroadcastsInDim S131072x8 ![0, 1]) (x : S1x8.Idx → α) (R : Fin 131072) (e : Fin 8) :
    broadcastInDim S131072x8 ![0, 1] h x (ix2 R e) = x (ix2 (0 : Fin 1) e) :=
  broadcastInDim_apply _ h x _ _ fun a => match a with | ⟨0, _⟩ => rfl | ⟨1, _⟩ => rfl

/-- A vector `[8]` viewed as a row `[1, 8]` reads, at `(0, e)`, the vector at `e`. -/
theorem bcast_vec (h : S8.BroadcastsInDim S1x8 ![1]) (x : S8.Idx → α) (z : Fin 1) (e : Fin 8) :
    broadcastInDim S1x8 ![1] h x (ix2 z e) = x (ix1 e) :=
  broadcastInDim_apply _ h x _ _ fun a => match a with | ⟨0, _⟩ => rfl

end Layout3

/-- The species words flattened to a column and compared with the row `0 … 7`, converted to numbers: at `(R, e)`,
    1 when atom row `R`'s word is `e`, 0 otherwise. -/
theorem onehot_read (sp : S2048x64.Idx → BitVec 32) (hs : S2048x64.ShapeCasts S131072x1)
    (h1 : S131072x1.BroadcastsInDim S131072x8 ![0, 1]) (h2 : S1x8.BroadcastsInDim S131072x8 ![0, 1])
    (h3 : S8.BroadcastsInDim S1x8 ![1]) (R : Fin 131072) (e : Fin 8) :
    (uitofp .f32 (cmpi .eq (broadcastInDim S131072x8 ![0, 1] h1 (shapeCast S131072x1 sp hs))
        (broadcastInDim S131072x8 ![0, 1] h2 (broadcastInDim S1x8 ![1] h3 (iotaInDim S8 32 0)))) : FVec Ideal S131072x8 .f32) (ix2 R e)
      = if sp (ix2 (mol R) (atm R)) = BitVec.ofNat 32 e.val then (1 : EReal) else 0 := by
  show (FloatOps.uitofp (F := Ideal) .f32 (IntOp.cmpi .eq
      (broadcastInDim S131072x8 ![0, 1] h1 (shapeCast S131072x1 sp hs) (ix2 R e))
      (broadcastInDim S131072x8 ![0, 1] h2 (broadcastInDim S1x8 ![1] h3 (iotaInDim S8 32 0)) (ix2 R e))) : EReal) = _
  rw [bcast_col, reshape_col, bcast_row, bcast_vec, eqBit_toReal]
  rfl

/-! ## The second layers as a block-diagonal matrix -/

section Layout4

variable {α : Type}

/-- `[8, 96, 8]` with its two leading axes merged, `[768, 8]`, reads, at `(k, e)`, the operand at `(k / 96, k % 96, e)`. -/
theorem reshape_bd (x : S8x96x8.Idx → α) (h : S8x96x8.ShapeCasts S768x8) (k : Fin 768) (e : Fin 8) :
    shapeCast S768x8 x h (ix2 k e)
      = x (ix3 (⟨k.val / 96, by have := k.isLt; omega⟩ : Fin 8) (⟨k.val % 96, by omega⟩ : Fin 96) e) :=
  shapeCast_apply x h _ _ (by
    rw [Shape.rowMajor_val_three, Shape.rowMajor_val_two]
    show (k.val / 96 * 96 + k.val % 96) * 8 + e.val = k.val * 8 + e.val
    omega)

/-- `[8, 96, 1]` with its unit axis dropped, `[8, 96]`, reads, at `(a, b)`, the operand at `(a, b, 0)`. -/
theorem reshape_drop1 (x : S8x96x1.Idx → α) (h : S8x96x1.ShapeCasts S8x96) (a : Fin 8) (b : Fin 96) :
    shapeCast S8x96 x h (ix2 a b) = x (ix3 a b (0 : Fin 1)) :=
  shapeCast_apply x h _ _ (by
    rw [Shape.rowMajor_val_three, Shape.rowMajor_val_two]
    show (a.val * 96 + b.val) * 1 + 0 = a.val * 96 + b.val
    omega)

/-- `[8, 96]` given a trailing unit axis reads, at `(a, b, z)`, the operand at `(a, b)`. -/
theorem bcast_add1 (h : S8x96.BroadcastsInDim S8x96x1 ![0, 1]) (x : S8x96.Idx → α) (a : Fin 8) (b : Fin 96) (z : Fin 1) :
    broadcastInDim S8x96x1 ![0, 1] h x (ix3 a b z) = x (ix2 a b) :=
  broadcastInDim_apply _ h x _ _ fun ax => match ax with | ⟨0, _⟩ => rfl | ⟨1, _⟩ => rfl

/-- `[8, 96, 1]` repeated along its unit axis to `[8, 96, 8]` reads, at `(a, b, e)`, the operand at `(a, b, 0)`. -/
theorem bcast_last (h : S8x96x1.BroadcastsInDim S8x96x8 ![0, 1, 2]) (x : S8x96x1.Idx → α) (a : Fin 8) (b : Fin 96) (e : Fin 8) :
    broadcastInDim S8x96x8 ![0, 1, 2] h x (ix3 a b e) = x (ix3 a b (0 : Fin 1)) :=
  broadcastInDim_apply _ h x _ _ fun ax => match ax with | ⟨0, _⟩ => rfl | ⟨1, _⟩ => rfl | ⟨2, _⟩ => rfl

/-- `[8, 1, 8]` repeated along its unit axis to `[8, 96, 8]` reads, at `(a, b, e)`, the operand at `(a, 0, e)`. -/
theorem bcast_mid (h : S8x1x8.BroadcastsInDim S8x96x8 ![0, 1, 2]) (x : S8x1x8.Idx → α) (a : Fin 8) (b : Fin 96) (e : Fin 8) :
    broadcastInDim S8x96x8 ![0, 1, 2] h x (ix3 a b e) = x (ix3 a (0 : Fin 1) e) :=
  broadcastInDim_apply _ h x _ _ fun ax => match ax with | ⟨0, _⟩ => rfl | ⟨1, _⟩ => rfl | ⟨2, _⟩ => rfl

/-- `[8, 8]` given a middle unit axis reads, at `(a, z, e)`, the operand at `(a, e)`. -/
theorem bcast_addmid (h : S8x8.BroadcastsInDim S8x1x8 ![0, 2]) (x : S8x8.Idx → α) (a : Fin 8) (z : Fin 1) (e : Fin 8) :
    broadcastInDim S8x1x8 ![0, 2] h x (ix3 a z e) = x (ix2 a e) :=
  broadcastInDim_apply _ h x _ _ fun ax => match ax with | ⟨0, _⟩ => rfl | ⟨1, _⟩ => rfl

end Layout4

/-- The 8 × 8 identity as the program builds it (row index plus zero compared with column index, converted to
    numbers): at `(a, e)`, 1 when `a = e`, 0 otherwise. -/
theorem eye_read (h0 : S_.BroadcastsInDim S8x8 ![]) (a e : Fin 8) :
    (uitofp .f32 (cmpi .eq (addi (iotaInDim S8x8 32 0) (broadcastInDim S8x8 ![] h0 (constantI S_ 32 0#32)))
        (iotaInDim S8x8 32 1)) : FVec Ideal S8x8 .f32) (ix2 a e)
      = if a.val = e.val then (1 : EReal) else 0 := by
  show (FloatOps.uitofp (F := Ideal) .f32 (IntOp.cmpi .eq (BitVec.ofNat 32 a.val + 0#32) (BitVec.ofNat 32 e.val)) : EReal) = _
  rw [eqBit_toReal, BitVec.add_zero]
  exact if_congr (ofNat32_inj_lt8 a e) rfl rfl

/-- The second layers times the identity's rows, merged to `[768, 8]`: at `(k, e)`, weight `k % 96` of network
    `k / 96` when `k / 96 = e`, and that weight times 0 otherwise. -/
theorem w2bd_read (w2 : S8x96x1.Idx → EReal) (hd : S8x96x1.ShapeCasts S8x96) (ha : S8x96.BroadcastsInDim S8x96x1 ![0, 1])
    (hl : S8x96x1.BroadcastsInDim S8x96x8 ![0, 1, 2]) (hm : S8x1x8.BroadcastsInDim S8x96x8 ![0, 1, 2])
    (hq : S8x8.BroadcastsInDim S8x1x8 ![0, 2]) (h0 : S_.BroadcastsInDim S8x8 ![]) (hr : S8x96x8.ShapeCasts S768x8)
    (hb : FTy.bf16.bits < FTy.f32.bits) (k : Fin 768) (e : Fin 8) :
    (truncf .bf16 (shapeCast S768x8 (mulf
        (broadcastInDim S8x96x8 ![0, 1, 2] hl (broadcastInDim S8x96x1 ![0, 1] ha (shapeCast S8x96 w2 hd)) : FVec Ideal S8x96x8 .f32)
        (broadcastInDim S8x96x8 ![0, 1, 2] hm (broadcastInDim S8x1x8 ![0, 2] hq
          (uitofp .f32 (cmpi .eq (addi (iotaInDim S8x8 32 0) (broadcastInDim S8x8 ![] h0 (constantI S_ 32 0#32)))
            (iotaInDim S8x8 32 1)) : FVec Ideal S8x8 .f32)))) hr : FVec Ideal S768x8 .f32) hb : FVec Ideal S768x8 .bf16) (ix2 k e)
      = w2 (ix3 (⟨k.val / 96, by have := k.isLt; omega⟩ : Fin 8) (⟨k.val % 96, by omega⟩ : Fin 96) (0 : Fin 1))
          * (if k.val / 96 = e.val then (1 : EReal) else 0) := by
  rw [truncf_apply, reshape_bd, mulf_apply, bcast_last, bcast_add1, reshape_drop1, bcast_mid, bcast_addmid, eye_read]

end HostPrefix

open HostPrefix

variable (m : (ℓ : Loc nD τ sig) → Buf (Elt Ideal) ℓ) (c : Dev nD)

/-! ## The reshaped arguments -/

/-- the descriptors as atom rows -/
theorem V_rows (R : Fin 131072) (d : Fin 384) :
    (V m c main_v0 : S131072x384.Idx → EReal) (ix2 R d) = (m ((c.tc : Thread nD τ).loc main_arg1) : S2048x64x384.Idx → EReal) (ix3 (mol R) (atm R) d) := by
  have e : (V m c main_v0 : S131072x384.Idx → EReal)
      = shapeCast S131072x384 (m ((c.tc : Thread nD τ).loc main_arg1) : S2048x64x384.Idx → EReal) shapeCasts_S2048x64x384_S131072x384 := by
    show StableHlo.after hostOps0 (fun b => m (c, b)) (Proc.devRef .tc main_v0) = _
    after_results
    rfl
  rw [e]
  exact reshape_rows _ _ R d

/-- the shared bias as a row -/
theorem V_bsv (q : Fin 64) :
    (V m c main_v26 : S1x64.Idx → EReal) (ix2 (0 : Fin 1) q) = (m ((c.tc : Thread nD τ).loc main_arg3) : S64.Idx → EReal) (ix1 q) := by
  have e : (V m c main_v26 : S1x64.Idx → EReal)
      = shapeCast S1x64 (m ((c.tc : Thread nD τ).loc main_arg3) : S64.Idx → EReal) shapeCasts_S64_S1x64 := by
    show StableHlo.after hostOps0 (fun b => m (c, b)) (Proc.devRef .tc main_v26) = _
    after_results
    rfl
  rw [e]
  exact reshape_row64 _ _ q

theorem V_b1c (k : Fin 768) :
    (V m c main_v10 : S1x768.Idx → EReal) (ix2 (0 : Fin 1) k)
      = (m ((c.tc : Thread nD τ).loc main_arg5) : S8x96.Idx → EReal) (ix2 (⟨k.val / 96, by have := k.isLt; omega⟩ : Fin 8) (⟨k.val % 96, by omega⟩ : Fin 96)) := by
  have e : (V m c main_v10 : S1x768.Idx → EReal)
      = shapeCast S1x768 (m ((c.tc : Thread nD τ).loc main_arg5) : S8x96.Idx → EReal) shapeCasts_S8x96_S1x768 := by
    show StableHlo.after hostOps0 (fun b => m (c, b)) (Proc.devRef .tc main_v10) = _
    after_results
    rfl
  rw [e]
  exact reshape_row768 _ _ k

theorem V_b2v (e : Fin 8) :
    (V m c main_v25 : S1x8.Idx → EReal) (ix2 (0 : Fin 1) e) = (m ((c.tc : Thread nD τ).loc main_arg7) : S8x1.Idx → EReal) (ix2 e (0 : Fin 1)) := by
  have h : (V m c main_v25 : S1x8.Idx → EReal)
      = shapeCast S1x8 (m ((c.tc : Thread nD τ).loc main_arg7) : S8x1.Idx → EReal) shapeCasts_S8x1_S1x8 := by
    show StableHlo.after hostOps0 (fun b => m (c, b)) (Proc.devRef .tc main_v25) = _
    after_results
    rfl
  rw [h]
  exact reshape_row8 _ _ e

/-- the 8 first layers side by side: column k is unit k % 96 of network k / 96 -/
theorem V_w1c (q : Fin 64) (k : Fin 768) :
    (V m c main_v9 : S64x768.Idx → EReal) (ix2 q k)
      = (m ((c.tc : Thread nD τ).loc main_arg4) : S8x64x96.Idx → EReal) (ix3 (⟨k.val / 96, by have := k.isLt; omega⟩ : Fin 8) q (⟨k.val % 96, by omega⟩ : Fin 96)) := by
  have e : (V m c main_v9 : S64x768.Idx → EReal)
      = shapeCast S64x768 (transpose S64x8x96 [1, 0, 2] (m ((c.tc : Thread nD τ).loc main_arg4) : S8x64x96.Idx → EReal)
          transposes_S8x64x96_S64x8x96_1_0_2) shapeCasts_S64x8x96_S64x768 := by
    show StableHlo.after hostOps0 (fun b => m (c, b)) (Proc.devRef .tc main_v9) = _
    after_results
    rfl
  rw [e]
  exact reshape_transpose_w1 _ _ _ q k

/-- the one-hot species matrix -/
theorem V_onehot (R : Fin 131072) (e : Fin 8) :
    (V m c main_v7 : S131072x8.Idx → EReal) (ix2 R e)
      = if (m ((c.tc : Thread nD τ).loc main_arg0) : S2048x64.Idx → BitVec 32) (ix2 (mol R) (atm R)) = BitVec.ofNat 32 e.val then (1 : EReal) else 0 := by
  have h : (V m c main_v7 : S131072x8.Idx → EReal)
      = (uitofp .f32 (cmpi .eq (broadcastInDim S131072x8 ![0, 1] bcast_S131072x1_S131072x8_0_1
            (shapeCast S131072x1 (m ((c.tc : Thread nD τ).loc main_arg0) : S2048x64.Idx → BitVec 32) shapeCasts_S2048x64_S131072x1))
          (broadcastInDim S131072x8 ![0, 1] bcast_S1x8_S131072x8_0_1 (broadcastInDim S1x8 ![1] bcast_S8_S1x8_1 (iotaInDim S8 32 0))))
        : FVec Ideal S131072x8 .f32) := by
    show StableHlo.after hostOps0 (fun b => m (c, b)) (Proc.devRef .tc main_v7) = _
    after_results
    rfl
  rw [h]
  exact onehot_read _ _ _ _ _ R e

/-- the 8 second layers as a block-diagonal 768 × 8 matrix -/
theorem V_w2bd (k : Fin 768) (e : Fin 8) :
    (V m c main_v24 : S768x8.Idx → EReal) (ix2 k e)
      = HMul.hMul (α := EReal) (β := EReal) (γ := EReal)
          ((m ((c.tc : Thread nD τ).loc main_arg6) : S8x96x1.Idx → EReal) (ix3 (⟨k.val / 96, by have := k.isLt; omega⟩ : Fin 8) (⟨k.val % 96, by omega⟩ : Fin 96) (0 : Fin 1)))
          (if k.val / 96 = e.val then (1 : EReal) else 0) := by
  have h : (V m c main_v24 : S768x8.Idx → EReal)
      = (truncf .bf16 (shapeCast S768x8 (mulf
          (broadcastInDim S8x96x8 ![0, 1, 2] bcast_S8x96x1_S8x96x8_0_1_2 (broadcastInDim S8x96x1 ![0, 1] bcast_S8x96_S8x96x1_0_1
            (shapeCast S8x96 (m ((c.tc : Thread nD τ).loc main_arg6) : S8x96x1.Idx → EReal) shapeCasts_S8x96x1_S8x96)) : FVec Ideal S8x96x8 .f32)
          (broadcastInDim S8x96x8 ![0, 1, 2] bcast_S8x1x8_S8x96x8_0_1_2 (broadcastInDim S8x1x8 ![0, 2] bcast_S8x8_S8x1x8_0_2
            (uitofp .f32 (cmpi .eq (addi (iotaInDim S8x8 32 0) (broadcastInDim S8x8 ![] bcast_S_S8x8 (constantI S_ 32 0#32)))
              (iotaInDim S8x8 32 1)) : FVec Ideal S8x8 .f32)))) shapeCasts_S8x96x8_S768x8 : FVec Ideal S768x8 .f32) bitsLt_bf16_f32
        : FVec Ideal S768x8 .bf16) := by
    show StableHlo.after hostOps0 (fun b => m (c, b)) (Proc.devRef .tc main_v24) = _
    after_results
    rfl
  rw [h]
  exact w2bd_read _ _ _ _ _ _ _ _ _ k e

end Cert.Ani

end
-- ==== Proof.KernelValue.lean ====
/-
  The kernel program's run, read: its energies array ends holding the molecule energies `G` of the arguments.

  Each of the 16 grid points stores one [1, 1, 128] block: entry mm is the masked row sum of the tile's row energies,
  which is molecule t · 128 + mm's energy (the payload read at an index, the tile's operand blocks read off the arrays
  the host operations arranged, and the tile identity). The 16 blocks tile the [16, 1, 128] output array, and the one
  host line after the region flattens it to [2048].
-/
import proofs.«100109_g34385508172240_cont_8to1_b_268_15_alg».proof.Proof.Gen.KernelIdeal.Frame
import proofs.«100109_g34385508172240_cont_8to1_b_268_15_alg».proof.Proof.Spec
import proofs.«100109_g34385508172240_cont_8to1_b_268_15_alg».proof.Proof.Bridge
import proofs.«100109_g34385508172240_cont_8to1_b_268_15_alg».proof.Proof.Payload
import proofs.«100109_g34385508172240_cont_8to1_b_268_15_alg».proof.Proof.HostPrefix
import Idealize.ShloMosaic.Lib.Pipeline.Value
import Idealize.ShloMosaic.Lib.StableHlo.Run
import Idealize.ShloMosaic.Lib.Tactic

noncomputable section

namespace Cert.Ani

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 16 points: point t is tile t. -/
abbrev tileOf (t : Fin cfg0.N) : Fin 16 := ⟨t.val, by have h := t.isLt; have hN : cfg0.N = 16 := N_0; omega⟩

/-- The block index maps, decided over the grid: the one-hot matrix, the descriptor rows and the output move with the
    point along their leading axis; every weight and bias operand stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-! ## Each window's block at a point, read off the array the region finds -/

/-- Row r of the one-hot block at point t is atom row t · 8192 + r of the one-hot matrix. -/
theorem iblk0_apply (c : Dev nD) (t : Fin cfg0.N) (r : Fin 8192) (e : Fin 8) :
    (iblk m c 0 t : S8192x8.Idx → EReal) (ix2 r e) = (V m c main_v7 : S131072x8.Idx → EReal) (ix2 (trow (tileOf t) r) e) := by
  obtain ⟨e0, e1, -⟩ := idx_facts t
  unfold iblk
  rw [View.read_apply]
  show (V m c main_v7 : S131072x8.Idx → EReal) _ = (V m c main_v7 : S131072x8.Idx → EReal) _
  refine congrArg (V m c main_v7 : S131072x8.Idx → EReal) (funext fun a => Fin.ext ?_)
  match a with
  | ⟨0, _⟩ => show win0_0.index t (0 : Fin 2) * 8192 + 1 * r.val = t.val * 8192 + r.val; rw [e0]; omega
  | ⟨1, _⟩ => show win0_0.index t (1 : Fin 2) * 8 + 1 * e.val = e.val; rw [e1]; omega

/-- Row r of the descriptor block at point t is atom row t · 8192 + r. -/
theorem iblk1_apply (c : Dev nD) (t : Fin cfg0.N) (r : Fin 8192) (d : Fin 384) :
    (iblk m c 1 t : S8192x384.Idx → EReal) (ix2 r d) = (V m c main_v0 : S131072x384.Idx → EReal) (ix2 (trow (tileOf t) r) d) := by
  obtain ⟨-, -, e0, e1, -⟩ := idx_facts t
  unfold iblk
  rw [View.read_apply]
  show (V m c main_v0 : S131072x384.Idx → EReal) _ = (V m c main_v0 : S131072x384.Idx → EReal) _
  refine congrArg (V m c main_v0 : S131072x384.Idx → EReal) (funext fun a => Fin.ext ?_)
  match a with
  | ⟨0, _⟩ => show win0_1.index t (0 : Fin 2) * 8192 + 1 * r.val = t.val * 8192 + r.val; rw [e0]; omega
  | ⟨1, _⟩ => show win0_1.index t (1 : Fin 2) * 384 + 1 * d.val = d.val; rw [e1]; omega

/-- The shared weights' block is the whole matrix. -/
theorem iblk2_eq (c : Dev nD) (t : Fin cfg0.N) :
    (iblk m c 2 t : S384x64.Idx → EReal) = (V m c main_arg2 : S384x64.Idx → EReal) := by
  obtain ⟨-, -, -, -, e0, e1, -⟩ := idx_facts t
  funext j
  unfold iblk
  rw [View.read_apply]
  show (V m c main_arg2 : S384x64.Idx → EReal) _ = (V m c main_arg2 : S384x64.Idx → EReal) _
  refine congrArg (V m c main_arg2 : S384x64.Idx → EReal) (funext fun a => Fin.ext ?_)
  match a with
  | ⟨0, _⟩ => show win0_2.index t (0 : Fin 2) * 384 + 1 * (j 0).val = (j 0).val; rw [e0]; omega
  | ⟨1, _⟩ => show win0_2.index t (1 : Fin 2) * 64 + 1 * (j 1).val = (j 1).val; rw [e1]; omega

theorem iblk3_eq (c : Dev nD) (t : Fin cfg0.N) :
    (iblk m c 3 t : S1x64.Idx → EReal) = (V m c main_v26 : S1x64.Idx → EReal) := by
  obtain ⟨-, -, -, -, -, -, e0, e1, -⟩ := idx_facts t
  funext j
  unfold iblk
  rw [View.read_apply]
  show (V m c main_v26 : S1x64.Idx → EReal) _ = (V m c main_v26 : S1x64.Idx → EReal) _
  refine congrArg (V m c main_v26 : S1x64.Idx → EReal) (funext fun a => Fin.ext ?_)
  match a with
  | ⟨0, _⟩ => show win0_3.index t (0 : Fin 2) * 1 + 1 * (j 0).val = (j 0).val; rw [e0]; omega
  | ⟨1, _⟩ => show win0_3.index t (1 : Fin 2) * 64 + 1 * (j 1).val = (j 1).val; rw [e1]; omega

theorem iblk4_eq (c : Dev nD) (t : Fin cfg0.N) :
    (iblk m c 4 t : S64x768.Idx → EReal) = (V m c main_v9 : S64x768.Idx → EReal) := by
  obtain ⟨-, -, -, -, -, -, -, -, e0, e1, -⟩ := idx_facts t
  funext j
  unfold iblk
  rw [View.read_apply]
  show (V m c main_v9 : S64x768.Idx → EReal) _ = (V m c main_v9 : S64x768.Idx → EReal) _
  refine congrArg (V m c main_v9 : S64x768.Idx → EReal) (funext fun a => Fin.ext ?_)
  match a with
  | ⟨0, _⟩ => show win0_4.index t (0 : Fin 2) * 64 + 1 * (j 0).val = (j 0).val; rw [e0]; omega
  | ⟨1, _⟩ => show win0_4.index t (1 : Fin 2) * 768 + 1 * (j 1).val = (j 1).val; rw [e1]; omega

theorem iblk5_eq (c : Dev nD) (t : Fin cfg0.N) :
    (iblk m c 5 t : S1x768.Idx → EReal) = (V m c main_v10 : S1x768.Idx → EReal) := by
  obtain ⟨-, -, -, -, -, -, -, -, -, -, e0, e1, -⟩ := idx_facts t
  funext j
  unfold iblk
  rw [View.read_apply]
  show (V m c main_v10 : S1x768.Idx → EReal) _ = (V m c main_v10 : S1x768.Idx → EReal) _
  refine congrArg (V m c main_v10 : S1x768.Idx → EReal) (funext fun a => Fin.ext ?_)
  match a with
  | ⟨0, _⟩ => show win0_5.index t (0 : Fin 2) * 1 + 1 * (j 0).val = (j 0).val; rw [e0]; omega
  | ⟨1, _⟩ => show win0_5.index t (1 : Fin 2) * 768 + 1 * (j 1).val = (j 1).val; rw [e1]; omega

theorem iblk6_eq (c : Dev nD) (t : Fin cfg0.N) :
    (iblk m c 6 t : S768x8.Idx → EReal) = (V m c main_v24 : S768x8.Idx → EReal) := by
  obtain ⟨-, -, -, -, -, -, -, -, -, -, -, -, e0, e1, -⟩ := idx_facts t
  funext j
  unfold iblk
  rw [View.read_apply]
  show (V m c main_v24 : S768x8.Idx → EReal) _ = (V m c main_v24 : S768x8.Idx → EReal) _
  refine congrArg (V m c main_v24 : S768x8.Idx → EReal) (funext fun a => Fin.ext ?_)
  match a with
  | ⟨0, _⟩ => show win0_6.index t (0 : Fin 2) * 768 + 1 * (j 0).val = (j 0).val; rw [e0]; omega
  | ⟨1, _⟩ => show win0_6.index t (1 : Fin 2) * 8 + 1 * (j 1).val = (j 1).val; rw [e1]; omega

theorem iblk7_eq (c : Dev nD) (t : Fin cfg0.N) :
    (iblk m c 7 t : S1x8.Idx → EReal) = (V m c main_v25 : S1x8.Idx → EReal) := by
  obtain ⟨-, -, -, -, -, -, -, -, -, -, -, -, -, -, e0, e1, -⟩ := idx_facts t
  funext j
  unfold iblk
  rw [View.read_apply]
  show (V m c main_v25 : S1x8.Idx → EReal) _ = (V m c main_v25 : S1x8.Idx → EReal) _
  refine congrArg (V m c main_v25 : S1x8.Idx → EReal) (funext fun a => Fin.ext ?_)
  match a with
  | ⟨0, _⟩ => show win0_7.index t (0 : Fin 2) * 1 + 1 * (j 0).val = (j 0).val; rw [e0]; omega
  | ⟨1, _⟩ => show win0_7.index t (1 : Fin 2) * 8 + 1 * (j 1).val = (j 1).val; rw [e1]; omega

/-! ## What a point stores, and the output array after the run -/

/-- The molecule energies of the launch memory's arguments. -/
abbrev GK (c : Dev nD) : S2048.Idx → EReal :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The kernel's [16, 1, 128] output array: entry (T, 0, mm) is molecule T · 128 + mm's energy. -/
def outArr (c : Dev nD) : S16x1x128.Idx → EReal := fun i =>
  GK m c (ix1 (⟨(i 0).val * 128 + (i 2).val, by have h0 : (i 0).val < 16 := (i 0).isLt; have h2 : (i 2).val < 128 := (i 2).isLt; omega⟩ : Fin 2048))

/-- Entry mm of the block point t stores is molecule t · 128 + mm's energy: the body's payload read at an index, its
    operand blocks read off the host-arranged arrays, and the tile identity. -/
theorem point_eq (c : Dev nD) (t : Fin cfg0.N) (mm : Fin 128) :
    k0_pay1 (F := Ideal) (k0_pay2 (iblk m c 1 t) (iblk m c 2 t) (iblk m c 3 t) (iblk m c 4 t) (iblk m c 5 t) (iblk m c 6 t))
        (k0_pay3 (iblk m c 7 t)) (iblk m c 0 t) (ix3 (0 : Fin 1) (0 : Fin 1) mm)
      = GK m c (ix1 (⟨(tileOf t).val * 128 + mm.val, by have := (tileOf t).isLt; have := mm.isLt; omega⟩ : Fin 2048)) := by
  refine (payload_apply (iblk m c 0 t) (iblk m c 1 t) (iblk m c 2 t) (iblk m c 3 t) (iblk m c 4 t) (iblk m c 5 t) (iblk m c 6 t) (iblk m c 7 t) mm).trans ?_
  have h2 : (iblk m c 2 t : S384x64.Idx → EReal) = m ((c.tc : Thread nD τ).loc main_arg2) := (iblk2_eq m c t).trans (V_main_arg2 m c)
  rw [h2]
  exact tile_eq_G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (tileOf t)
    (iblk m c 0 t) (iblk m c 1 t) (iblk m c 3 t) (iblk m c 4 t) (iblk m c 5 t) (iblk m c 6 t) (iblk m c 7 t)
    (fun r e => (iblk0_apply m c t r e).trans (V_onehot m c (trow (tileOf t) r) e))
    (fun r d => (iblk1_apply m c t r d).trans (V_rows m c (trow (tileOf t) r) d))
    (fun q => (congrFun (iblk3_eq m c t) (ix2 (0 : Fin 1) q)).trans (V_bsv m c q))
    (fun q k => (congrFun (iblk4_eq m c t) (ix2 q k)).trans (V_w1c m c q k))
    (fun k => (congrFun (iblk5_eq m c t) (ix2 (0 : Fin 1) k)).trans (V_b1c m c k))
    (fun k e => (congrFun (iblk6_eq m c t) (ix2 k e)).trans (V_w2bd m c k e))
    (fun e => (congrFun (iblk7_eq m c t) (ix2 (0 : Fin 1) e)).trans (V_b2v m c e))
    mm

/-- The block a point stores, as a function of the block's index: entry (0, 0, mm) is molecule t · 128 + mm's energy. -/
theorem pay_fun (c : Dev nD) (t : Fin cfg0.N) :
    (k0_pay1 (F := Ideal) (k0_pay2 (iblk m c 1 t) (iblk m c 2 t) (iblk m c 3 t) (iblk m c 4 t) (iblk m c 5 t) (iblk m c 6 t))
        (k0_pay3 (iblk m c 7 t)) (iblk m c 0 t) : S1x1x128.Idx → EReal)
      = fun y => GK m c (ix1 (⟨(tileOf t).val * 128 + (y 2).val, by have := (tileOf t).isLt; have h2 : (y 2).val < 128 := (y 2).isLt; omega⟩ : Fin 2048)) := by
  funext y
  have hy2 : (y 2).val < 128 := (y 2).isLt
  obtain ⟨mm, rfl⟩ : ∃ mm : Fin 128, y = ix3 (0 : Fin 1) (0 : Fin 1) mm := ⟨⟨(y 2).val, hy2⟩, funext fun a => by
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl⟩
  exact point_eq m c t mm

/-- WHAT POINT t WRITES BACK is block t of `outArr`. -/
theorem flushed8_eq (c : Dev nD) (t : Fin cfg0.N) :
    (dats m 0 c).flushed 8 t = ((cfg0.win 8).blk t).view.read (Elt Ideal) (outArr m c) := by
  obtain ⟨-, -, -, -, -, -, -, -, -, -, -, -, -, -, -, -, e0, e1, e2⟩ := idx_facts t
  show (cfg0.win 8).cut (grid0.coords t) ((dats m 0 c).after 8 t) = _
  rw [after0_8]
  unfold out0_8
  rw [View.canon_unit_zero hz3]
  simp only [View.ld_unit_zero (S := S8192x384) hz2, View.ld_unit_zero (S := S384x64) hz2, View.ld_unit_zero (S := S1x64) hz2,
    View.ld_unit_zero (S := S64x768) hz2, View.ld_unit_zero (S := S1x768) hz2, View.ld_unit_zero (S := S768x8) hz2,
    View.ld_unit_zero (S := S1x8) hz2, View.ld_unit_zero (S := S8192x8) hz2]
  rw [pay_fun m c t]
  funext j
  have hj0 : (j 0).val = 0 := by have : (j 0).val < 1 := (j 0).isLt; omega
  show GK m c (ix1 (⟨(tileOf t).val * 128 + (j 2).val, _⟩ : Fin 2048)) = outArr m c (((cfg0.win 8).blk t).view.emb j)
  unfold outArr
  refine congrArg (GK m c) (congrArg ix1 (Fin.ext ?_))
  show t.val * 128 + (j 2).val = (win0_8.index t (0 : Fin 3) * 1 + 1 * (j 0).val) * 128 + (win0_8.index t (2 : Fin 3) * 128 + 1 * (j 2).val)
  rw [e0, e2, hj0]; omega

/-- An index of the output array is in point t's block iff each coordinate is in the block's range on its axis. -/
theorem mem_blk8 (t : Fin cfg0.N) (i : S16x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v27).slice (win0_8.rect t)).set ↔ _
  rw [View.set_slice_whole, Rect.mem_set_unit]
  exact Iff.rfl

/-- THE OUTPUT ARRAY after the run: the 16 points' blocks cover it (row T of the array is point T's block). -/
theorem final8 (c : Dev nD) : (dats m 0 c).arrAt 8 cfg0.N = outArr m c :=
  (dats m 0 c).arrAt_eq_of_cover 8 (outArr m c) (fun t _ => flushed8_eq m c t) fun i => by
    have h0 : (i 0).val < 16 := (i 0).isLt
    have h1 : (i 1).val < 1 := (i 1).isLt
    have h2 : (i 2).val < 128 := (i 2).isLt
    have hN : cfg0.N = 16 := N_0
    obtain ⟨t0, ht0⟩ : ∃ t0 : Fin cfg0.N, t0.val = (i 0).val := ⟨⟨(i 0).val, by omega⟩, rfl⟩
    refine ⟨t0, flush0_8 _, ?_⟩
    rw [mem_blk8]
    obtain ⟨-, -, -, -, -, -, -, -, -, -, -, -, -, -, -, -, e0, e1, e2⟩ := idx_facts t0
    intro a
    match a with
    | ⟨0, _⟩ => show win0_8.index _ (0 : Fin 3) * 1 ≤ (i 0).val ∧ (i 0).val < win0_8.index _ (0 : Fin 3) * 1 + 1; rw [e0]; omega
    | ⟨1, _⟩ => show win0_8.index _ (1 : Fin 3) * 1 ≤ (i 1).val ∧ (i 1).val < win0_8.index _ (1 : Fin 3) * 1 + 1; rw [e1]; omega
    | ⟨2, _⟩ => show win0_8.index _ (2 : Fin 3) * 128 ≤ (i 2).val ∧ (i 2).val < win0_8.index _ (2 : Fin 3) * 128 + 128; rw [e2]; omega

/-! ## The run, read -/

/-- The one host line after the region flattens [16, 1, 128] to [2048]: molecule b sits at (b / 128, 0, b % 128). -/
theorem tail_eq (c : Dev nD) :
    Pipeline.afterTail₀ cfgs (dats m) 0 (V0 m) [hostOps1] c main_v28 = GK m c := by
  unfold Pipeline.afterTail₀
  show StableHlo.after hostOps1 _ (Proc.devRef .tc main_v28) = _
  after_results
  rw [Pipeline.withArrays_arr spec0 launch0.win.arr_inj c _ _ 8, final8 m c]
  funext i
  have hi : (i 0).val < 2048 := (i 0).isLt
  refine (shapeCast_apply (outArr m c) shapeCasts_S16x1x128_S2048 i
    (ix3 (⟨(i 0).val / 128, by omega⟩ : Fin 16) (0 : Fin 1) (⟨(i 0).val % 128, by omega⟩ : Fin 128)) ?_).trans ?_
  · rw [Shape.rowMajor_val_three, Shape.rowMajor_val_one]
    show ((i 0).val / 128 * 1 + 0) * 128 + (i 0).val % 128 = (i 0).val
    omega
  · unfold outArr
    refine congrArg (GK m c) ?_
    funext a
    match a with
    | ⟨0, _⟩ => exact Fin.ext (by show (i 0).val / 128 * 128 + (i 0).val % 128 = (i 0).val; omega)

/-- THE KERNEL PROGRAM'S RUN: it ends with the species array as launched, the energies at `GK`, and every argument
    unchanged. -/
theorem run : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v28) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      (((h c).2 main_arg0 (Pipeline.mem_restRefs_of main_arg0 (by decide) (by decide))).trans (W_main_arg0 m (dats m) c)),
      (((h c).2 main_v28 (Pipeline.mem_restRefs_of main_v28 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.Ani

end
-- ==== Proof.lean ====
/-
  The certificate: a species-routed per-atom network (a shared 384 → 64 celu layer, then one of eight 64 → 96 → 1
  networks chosen by the atom's species word) summed over each molecule's 64 atoms.

  The kernel computes all eight networks for every atom row at once — the eight first layers laid side by side as one
  64 × 768 matrix, the eight second layers as one block-diagonal 768 × 8 matrix —, picks the species' output by a one-hot
  weighting, and sums a tile's rows into its 128 molecules through a mask; the reference applies the eight networks one
  after the other and keeps, row by row, the output of the network the species names, then sums each molecule's 64
  rows. On the extended reals these are one function of the arguments (`Cert.Ani.G`): a product with zero is zero and a
  sum does not depend on its order there, and celu's two spellings agree at every extended real, so the precondition
  (finite inputs) is never opened. The kernel side is `Cert.Ani.run` (the frame run read through the payload, the
  host-arranged operands and the tile identity), the reference side its run with its result term read operation by
  operation (`Cert.Ani.ref_eq_of` over the eight per-network readings).
-/
import proofs.«100109_g34385508172240_cont_8to1_b_268_15_alg».proof.Defs
import proofs.«100109_g34385508172240_cont_8to1_b_268_15_alg».proof.Proof.Gen.Kernel
import proofs.«100109_g34385508172240_cont_8to1_b_268_15_alg».proof.Proof.Gen.Kernel.Skeleton
import proofs.«100109_g34385508172240_cont_8to1_b_268_15_alg».proof.Proof.Gen.Kernel.Launch
import proofs.«100109_g34385508172240_cont_8to1_b_268_15_alg».proof.Proof.Gen.Kernel.Points
import proofs.«100109_g34385508172240_cont_8to1_b_268_15_alg».proof.Proof.Gen.Kernel.Frame
import proofs.«100109_g34385508172240_cont_8to1_b_268_15_alg».proof.Proof.Gen.KernelIdeal
import proofs.«100109_g34385508172240_cont_8to1_b_268_15_alg».proof.Proof.Gen.KernelIdeal.Skeleton
import proofs.«100109_g34385508172240_cont_8to1_b_268_15_alg».proof.Proof.Gen.KernelIdeal.Launch
import proofs.«100109_g34385508172240_cont_8to1_b_268_15_alg».proof.Proof.Gen.KernelIdeal.Points
import proofs.«100109_g34385508172240_cont_8to1_b_268_15_alg».proof.Proof.Gen.KernelIdeal.Frame
import proofs.«100109_g34385508172240_cont_8to1_b_268_15_alg».proof.Proof.Gen.ReferenceIdeal
import proofs.«100109_g34385508172240_cont_8to1_b_268_15_alg».proof.Proof.Gen.Pre_finite_inputs
import proofs.«100109_g34385508172240_cont_8to1_b_268_15_alg».proof.Proof.RefRun
import proofs.«100109_g34385508172240_cont_8to1_b_268_15_alg».proof.Proof.RefRead
import proofs.«100109_g34385508172240_cont_8to1_b_268_15_alg».proof.Proof.RefSide
import proofs.«100109_g34385508172240_cont_8to1_b_268_15_alg».proof.Proof.RefSel
import proofs.«100109_g34385508172240_cont_8to1_b_268_15_alg».proof.Proof.KernelValue
import Idealize.ShloMosaic.Adequacy
import Idealize.ShloMosaic.Init

noncomputable section

namespace Cert.Proof

open Idealize.ShloMosaic Idealize.SL.Sem

/-- The reference's result term is the molecule energies `G` of its arguments. -/
theorem ref_eq (x0 : (⟨Cert.ReferenceIdeal.S2048x64, .i32⟩ : BufTy).Contents (Elt Ideal))
    (x1 : (⟨Cert.ReferenceIdeal.S2048x64x384, .f32⟩ : BufTy).Contents (Elt Ideal))
    (x2 : (⟨Cert.ReferenceIdeal.S384x64, .f32⟩ : BufTy).Contents (Elt Ideal))
    (x3 : (⟨Cert.ReferenceIdeal.S64, .f32⟩ : BufTy).Contents (Elt Ideal))
    (x4 : (⟨Cert.ReferenceIdeal.S8x64x96, .f32⟩ : BufTy).Contents (Elt Ideal))
    (x5 : (⟨Cert.ReferenceIdeal.S8x96, .f32⟩ : BufTy).Contents (Elt Ideal))
    (x6 : (⟨Cert.ReferenceIdeal.S8x96x1, .f32⟩ : BufTy).Contents (Elt Ideal))
    (x7 : (⟨Cert.ReferenceIdeal.S8x1, .f32⟩ : BufTy).Contents (Elt Ideal)) :
    Cert.ReferenceIdeal.ReadP.val_main_v177 (F := Ideal) x0 x1 x2 x3 x4 x5 x6 x7 = Cert.Ani.G x0 x1 x2 x3 x4 x5 x6 x7 :=
  Cert.Ani.ref_eq_of x0 x1 x2 x3 x4 x5 x6 x7
    (Cert.Ani.en0_eq x1 x2 x3 x4 x5 x6 x7) (Cert.Ani.en1_eq x1 x2 x3 x4 x5 x6 x7) (Cert.Ani.en2_eq x1 x2 x3 x4 x5 x6 x7)
    (Cert.Ani.en3_eq x1 x2 x3 x4 x5 x6 x7) (Cert.Ani.en4_eq x1 x2 x3 x4 x5 x6 x7) (Cert.Ani.en5_eq x1 x2 x3 x4 x5 x6 x7)
    (Cert.Ani.en6_eq x1 x2 x3 x4 x5 x6 x7) (Cert.Ani.en7_eq x1 x2 x3 x4 x5 x6 x7)

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs, from memories agreeing on the arguments, end with the species array as launched and the energies at
    `G` of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Ani.GK m c, Cert.Ani.run m ρ, ?_⟩
  refine (θ_run Cert.ReferenceIdeal.defs _ _).mono (fun _ h c => ⟨(h c).1.trans (hagree c).1, (h c).2.1.trans ?_, (h c).2.2⟩)
    (Cert.ReferenceIdeal.ValueP.run (F := Ideal) m' ρ')
  rw [Cert.ReferenceIdeal.ReadP.val_main_v177_eq, ref_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
